-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S32x4096 : Shape := ⟨2, ![32, 4096]⟩
abbrev S4096x32 : Shape := ⟨2, ![4096, 32]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4096x4096 .f32) (main_arg1 : IVec S4096x4096 32) (main_arg2 : FVec F S4096x64 .f32) (main_arg3 : FVec F S32x4096 .f32) (main_arg4 : FVec F S4096x32 .f32) (main_arg5 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x32 .f32 := Host.absf main_arg4
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg5 main_v13 main_v16
-- ==== Kernel.lean ====
abbrev S4096x4096 : Shape := ⟨2, ![4096, 4096]⟩
abbrev S4096x64 : Shape := ⟨2, ![4096, 64]⟩
abbrev S32x4096 : Shape := ⟨2, ![32, 4096]⟩
abbrev S4096x32 : Shape := ⟨2, ![4096, 32]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x64x64 : Shape := ⟨3, ![4096, 64, 64]⟩
abbrev S1x4096 : Shape := ⟨2, ![1, 4096]⟩
abbrev S1024x512 : Shape := ⟨2, ![1024, 512]⟩
abbrev S1024x32 : Shape := ⟨2, ![1024, 32]⟩
abbrev S1x1024 : Shape := ⟨2, ![1, 1024]⟩
abbrev S1024x1024 : Shape := ⟨2, ![1024, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x64, .f32⟩
  | .hbm, ⟨3, _⟩ => ⟨S32x4096, .f32⟩
  | .hbm, ⟨4, _⟩ => ⟨S4096x32, .f32⟩
  | .hbm, ⟨5, _⟩ => ⟨S4096, .f32⟩
  | .hbm, ⟨6, _⟩ => ⟨S4096x4096, .bf16⟩
  | .hbm, ⟨7, _⟩ => ⟨S4096x64x64, .f32⟩
  | .hbm, ⟨8, _⟩ => ⟨S4096x4096, .f32⟩
  | .hbm, ⟨9, _⟩ => ⟨S4096x32, .f32⟩
  | .hbm, ⟨10, _⟩ => ⟨S4096x32, .f32⟩
  | .hbm, ⟨11, _⟩ => ⟨S1x4096, .f32⟩
  | .hbm, ⟨12, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .i32⟩
  | .local _ .vmem, ⟨7, _⟩ => ⟨S1024x512, .i32⟩
  | .local _ .vmem, ⟨8, _⟩ => ⟨S1024x512, .f32⟩
  | .local _ .vmem, ⟨9, _⟩ => ⟨S1024x512, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  transposes_S32x4096_S4096x32_1_0 : S32x4096.Transposes [1, 0] S4096x32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S4096x4096_S4096x32_S4096x32_1_0_0_1_n_n_wf : DotDims.WF S4096x4096 S4096x32 S4096x32 [1] [0] [0] [1] [] []
  dot_S1024x512_S1024x512_S1024x1024_1_1_0_0_n_n_wf : DotDims.WF S1024x512 S1024x512 S1024x1024 [1] [1] [0] [0] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .bf16 = 32 ∨ (Rect.block (s := S4096x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .i32 = 32 ∨ (Rect.block (s := S4096x4096) S1024x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .f32 = 32 ∨ (Rect.block (s := S4096x4096) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S4096x32.size a
  hwx1_3 : ∀ i : grid1.Coords, EltTy.bits .f32 = 32 ∨ (Rect.block (s := S4096x32) S1024x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x32.size a ≤ S4096x32.size a
  hwx1_4 : ∀ i : grid1.Coords, EltTy.bits .f32 = 32 ∨ (Rect.block (s := S4096x32) S1024x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x4096.size a
  hwx1_6 : ∀ i : grid1.Coords, EltTy.bits .f32 = 32 ∨ (Rect.block (s := S4096x4096) S1024x1024.size (cc1_transform_6 i) (hinb1_6 i)).WholeWords (EltTy.packing .f32)

variable [Facts₀]

def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x64 : Shape := ⟨2, ![4096, 64]⟩
abbrev S32x4096 : Shape := ⟨2, ![32, 4096]⟩
abbrev S4096x32 : Shape := ⟨2, ![4096, 32]⟩
abbrev S4096 : Shape := ⟨1, ![4096]⟩
abbrev S4096x64x64 : Shape := ⟨3, ![4096, 64, 64]⟩
abbrev S4096x64x1 : Shape := ⟨3, ![4096, 64, 1]⟩
abbrev S_ : Shape := ⟨0, ![]⟩
abbrev S4096x1 : Shape := ⟨2, ![4096, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .i32⟩
  | .hbm, ⟨2, _⟩ => ⟨S4096x64, .f32⟩
  | .hbm, ⟨3, _⟩ => ⟨S32x4096, .f32⟩
  | .hbm, ⟨4, _⟩ => ⟨S4096x32, .f32⟩
  | .hbm, ⟨5, _⟩ => ⟨S4096, .f32⟩
  | .hbm, ⟨6, _⟩ => ⟨S4096x4096, .f32⟩
  | .hbm, ⟨7, _⟩ => ⟨S4096x64x64, .f32⟩
  | .hbm, ⟨8, _⟩ => ⟨S4096x64x1, .f32⟩
  | .hbm, ⟨9, _⟩ => ⟨S4096x64x64, .f32⟩
  | .hbm, ⟨10, _⟩ => ⟨S4096x64x64, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x32, .f32⟩
  | .hbm, ⟨37, _⟩ => ⟨S4096x4096, .f32⟩
  | .hbm, ⟨38, _⟩ => ⟨S4096x4096, .f32⟩
  | .hbm, ⟨39, _⟩ => ⟨S1x4096, .f32⟩
  | .hbm, ⟨40, _⟩ => ⟨S4096x4096, .f32⟩
  | .hbm, ⟨41, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []
  dot_S4096x4096_S32x4096_S4096x32_1_1_0_0_n_n_wf : DotDims.WF S4096x4096 S32x4096 S4096x32 [1] [1] [0] [0] [] []
  dot_S4096x32_S4096x32_S4096x4096_1_1_0_0_n_n_wf : DotDims.WF S4096x32 S4096x32 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf
def dot_S4096x4096_S32x4096_S4096x32_1_1_0_0_n_n : DotDims S4096x4096 S32x4096 S4096x32 where
  lhsContracting := [1]
  rhsContracting := [1]
  lhsNonContracting := [0]
  rhsNonContracting := [0]
  lhsBatch := []
  rhsBatch := []
  wf := dot_S4096x4096_S32x4096_S4096x32_1_1_0_0_n_n_wf
def dot_S4096x32_S4096x32_S4096x4096_1_1_0_0_n_n : DotDims S4096x32 S4096x32 S4096x4096 where
  lhsContracting := [1]
  rhsContracting := [1]
  lhsNonContracting := [0]
  rhsNonContracting := [0]
  lhsBatch := []
  rhsBatch := []
  wf := dot_S4096x32_S4096x32_S4096x4096_1_1_0_0_n_n_wf

class Facts : Prop extends Facts₀ where

variable [Facts]
-- ==== Proof.BFrQuant.lean ====
/- The row-quantization region (the first kernel launch) at a PARAMETER `V`, the buffer contents the region is entered
   from: each window's block at a grid point, what the body leaves in the output block (the one whole-block store of
   the quantized rows), the body's triple, the proof data of the pipeline and its body obligation. Stated at any float
   instance. -/
import proofs.«149985_j87849261072827_1_alg».proof.Proof.Gen.Kernel.Launch
import proofs.«149985_j87849261072827_1_alg».proof.Proof.Gen.Kernel.Skeleton
import proofs.«149985_j87849261072827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block (256 rows of `x`) at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 block as a rectangle. -/
abbrev r0_0 : Rect S256x4096 := Rect.unit (s := S256x4096) ![0, 0] S256x4096.size inb_S256x4096_S256x4096_0_0

/-- The output block after the body: the quantized rows of the input block, stored whole. -/
def out0_1 (x0 : Vec F S256x4096 .f32) : Vec F S256x4096 .bf16 :=
  View.canon [⟨r0_0, k0_pay1 (View.ld x0 r0_0)⟩]

/-- The one store covers the block. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging memrefs: the input block is kept, the output block ends at `out0_1` of it. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the quantization pipeline on core `c`: arrays as found; after the body the input block in place and
    the output block at `out0_1` of it; the invariant is the untouched scoped rest and generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the quantization pipeline, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.BFrMMBase.lean ====
/- The matrix-product region (the second kernel launch) at a PARAMETER `V`: what its three control cases share. The grid
   is 4 × 4 × 8; the last coordinate k walks the contraction in 8 blocks of 512. The body resets the accumulator when
   k = 0, adds one partial product at every k, and writes the output block (accumulator + low-rank term + bias) when
   k = 7. Here: the windows' blocks, the two branch conditions in closed form over the grid, where the output window is
   idle, the staging and scratch memrefs, and the region invariant split into the accumulator and the rest. -/
import proofs.«149985_j87849261072827_1_alg».proof.Proof.Gen.Kernel.Launch
import proofs.«149985_j87849261072827_1_alg».proof.Proof.Gen.Kernel.Skeleton
import proofs.«149985_j87849261072827_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions -/

/-- "k = 0": the accumulator is reset. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the output block is written. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where k = 0 the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- Where 0 < k < 7 likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- Where k = 7 the output window is live. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S1024x1024 .f32 := (Memref.whole cc1_stg6_0 : Memref sig .tc .vmem S1024x1024 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from one grid point to the next. -/
abbrev scM1_0 : Memref sig .tc .vmem S1024x1024 .f32 := Memref.whole cc1_scratch0
abbrev VS1_0 : View sig .tc .vmem S1024x1024 .f32 := scM1_0.view

/-- The scoped rest of this region with the accumulator's share `P` singled out: the other kernel's four staging
    buffers at some contents, then `P`. -/
def restS (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

/-- The class invariant (scoped rest and generator register) with the accumulator as a memref owned at some contents. -/
theorem PhiA1_eq (c : Dev nD) :
    (Pipeline.ΦA spec1 c : sProp 𝕄)
      = iprop(restS c (iprop(∃ d, owns (c : Thread nD τ) scM1_0 fullShare d)) ∗ (∃ r, prngReg c r)) := by
  unfold Pipeline.ΦA restS; rw [scopedRest1_eq]; simp only [scM1_0, owns_whole]; try rfl

end Cert.Kernel.Fr

end
-- ==== Proof.BFrMMRunA.lean ====
/- The matrix-product body run whole in the case k = 0 (the accumulator is reset, then receives the first partial product; the output block is left untouched): the pieces its stores leave in the accumulator (and, when k = 7, in
   the output block) are found by running the body, with the proof that on whole memrefs the body runs to its
   continuation with the inputs as they were. -/
import proofs.«149985_j87849261072827_1_alg».proof.Proof.BFrMMBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, last first, in the case k = 0 (the accumulator is reset, then receives the first partial product; the output block is left untouched), with the body's triple. -/
noncomputable def kernelRun1_A (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) :
    Σ' (L6 : List (View.Piece (Elt F) S1024x1024 .f32)), { LS0 : List (View.Piece (Elt F) S1024x1024 .f32) //
      ∀ (xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨[], ?_, fun xi6 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.BFrMMRunB.lean ====
/- The matrix-product body run whole in the case 0 < k < 7 (the accumulator receives one more partial product; the output block is left untouched): the pieces its stores leave in the accumulator (and, when k = 7, in
   the output block) are found by running the body, with the proof that on whole memrefs the body runs to its
   continuation with the inputs as they were. -/
import proofs.«149985_j87849261072827_1_alg».proof.Proof.BFrMMRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, last first, in the case 0 < k < 7 (the accumulator receives one more partial product; the output block is left untouched), with the body's triple. -/
noncomputable def kernelRun1_B (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    Σ' (L6 : List (View.Piece (Elt F) S1024x1024 .f32)), { LS0 : List (View.Piece (Elt F) S1024x1024 .f32) //
      ∀ (xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨[], ?_, fun xi6 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.BFrMMRunC.lean ====
/- The matrix-product body run whole in the case k = 7 (the accumulator receives the last partial product and the output block is written): the pieces its stores leave in the accumulator (and, when k = 7, in
   the output block) are found by running the body, with the proof that on whole memrefs the body runs to its
   continuation with the inputs as they were. -/
import proofs.«149985_j87849261072827_1_alg».proof.Proof.BFrMMRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, last first, in the case k = 7 (the accumulator receives the last partial product and the output block is written), with the body's triple. -/
noncomputable def kernelRun1_C (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    Σ' (L6 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Fr

end
-- ==== Proof.BFrMM.lean ====
/- The matrix-product region at a PARAMETER `V`, the rest: what each case leaves in the accumulator and in the output
   block, what they hold point by point along the grid (the accumulator after point t is the sum of the partial
   products of the k-blocks met since the last reset), the region invariant that carries the accumulator from one point to
   the next, the proof data, and the body obligation by cases on k. -/
import proofs.«149985_j87849261072827_1_alg».proof.Proof.BFrMMRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What case A leaves in the output block (nothing is stored: a placeholder nothing consults): its pieces read back. -/
def out1_A_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) : Vec F S1024x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- Case A's stores into the accumulator cover it. -/
theorem scover1_A_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (y : S1024x1024.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S1024x1024.size (by sl_kernel_rfl) y

/-- What case A leaves in the accumulator: its pieces read back. -/
def sout1_A_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

/-- What case B leaves in the output block (nothing is stored: a placeholder nothing consults): its pieces read back. -/
def out1_B_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

/-- Case B's stores into the accumulator cover it. -/
theorem scover1_B_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) (y : S1024x1024.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What case B leaves in the accumulator: its pieces read back. -/
def sout1_B_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

/-- When k = 7 the one store into the output block covers it. -/
theorem cover1_C_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S1024x1024.size (by sl_kernel_rfl) y

/-- What case C leaves in the output block: its pieces read back. -/
def out1_C_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

/-- Case C's stores into the accumulator cover it. -/
theorem scover1_C_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What case C leaves in the accumulator: its pieces read back. -/
def sout1_C_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

/-! ## What the output block and the accumulator hold after each point -/

/-- THE ACCUMULATION: the pair (output block, accumulator) after the body at grid position `n`, by recursion on the
    position: the case the position's k selects, run on the point's input blocks and, when k > 0, on the accumulator the
    point before left. -/
def outsAt1 (c : Dev nD) : (n : ℕ) → n < cfg1.N → Vec F S1024x1024 .f32 × Vec F S1024x1024 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point with k = 0. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point with 0 < k < 7: over the accumulator the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: over the accumulator the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest and generator register at
    anything; afterwards the accumulator at what the point before left in it. -/
def PhiS (c : Dev nD) : (n : ℕ) → n ≤ cfg1.N → sProp 𝕄
  | 0, _ => Pipeline.ΦA spec1 c
  | n + 1, hn => iprop(restS c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restS c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restS c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the matrix-product pipeline on core `c`: arrays as found; after the body each input block in
    place and the output block at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the closed forms of the conditions say which case the point is in; the invariant hands the
    body the accumulator at what the point before left (at anything at the very first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS_castSucc V c t, PhiS_pos V c _ _ hz]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation of the matrix-product pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped rest back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold restS
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end

end Cert.Kernel.Fr

end
-- ==== Proof.BFrRun.lean ====
/- THE RUN of the whole program: the quantization region, five host operations (the scales repeated along their groups,
   the down-projection of x, the bias as a row), the matrix-product region. The buffer contents at each boundary are a
   fold from the launch memory: a region leaves its arrays at what its write-backs leave and every other buffer as
   entered; a host stretch leaves what its operations compute. Every weakly fair execution terminates with every
   unscoped buffer at the last boundary's contents; the argument arrays read back through the fold are as launched. -/
import proofs.«149985_j87849261072827_1_alg».proof.Proof.BFrQuant
import proofs.«149985_j87849261072827_1_alg».proof.Proof.BFrMM
import proofs.«149985_j87849261072827_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the quantization region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the quantization region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the matrix-product region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the matrix-product region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 4).trans (((dat1 (V2 m ρ) c).arrAt_in 4 rfl _).trans (A_eq1 (V2 m ρ) c 4))
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The quantization region as a segment over the thread state "every unscoped buffer at the boundary's contents, the
    generator register at some state, nothing owed": its arrays split out of the unscoped buffers on entry and put back
    at the exit contents; the generator register into the region invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region as a segment over the thread state "every unscoped buffer at the boundary's contents, the
    generator register at some state, nothing owed": its arrays split out of the unscoped buffers on entry and put back
    at the exit contents; the generator register into the region invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BI.Entails.trans (hout1 (V2 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME at any float instance: every weakly fair execution terminates, nothing faulting, and the six argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel.Fr

end
-- ==== Proof.FrQuant.lean ====
/- The row-quantization region (the first kernel launch) at a PARAMETER `V`, the buffer contents the region is entered
   from: each window's block at a grid point, what the body leaves in the output block (the one whole-block store of
   the quantized rows), the body's triple, the proof data of the pipeline and its body obligation. Stated at any float
   instance. -/
import proofs.«149985_j87849261072827_1_alg».proof.Proof.Gen.KernelIdeal.Launch
import proofs.«149985_j87849261072827_1_alg».proof.Proof.Gen.KernelIdeal.Skeleton
import proofs.«149985_j87849261072827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block (256 rows of `x`) at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 4096 block as a rectangle. -/
abbrev r0_0 : Rect S256x4096 := Rect.unit (s := S256x4096) ![0, 0] S256x4096.size inb_S256x4096_S256x4096_0_0

/-- The output block after the body: the quantized rows of the input block, stored whole. -/
def out0_1 (x0 : Vec F S256x4096 .f32) : Vec F S256x4096 .bf16 :=
  View.canon [⟨r0_0, k0_pay1 (View.ld x0 r0_0)⟩]

/-- The one store covers the block. -/
theorem cover0_1 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

set_option maxHeartbeats 1000000 in
/-- The body on whole staging memrefs: the input block is kept, the output block ends at `out0_1` of it. -/
theorem sound_kernel0 (c : Dev nD) (E : Set ℕ) (i : grid0.Coords) (arg1 : Memref sig .tc .vmem S256x4096 .f32) (harg1 : arg1.IsWhole) (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the quantization pipeline on core `c`: arrays as found; after the body the input block in place and
    the output block at `out0_1` of it; the invariant is the untouched scoped rest and generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the quantization pipeline, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.FrMMBase.lean ====
/- The matrix-product region (the second kernel launch) at a PARAMETER `V`: what its three control cases share. The grid
   is 4 × 4 × 8; the last coordinate k walks the contraction in 8 blocks of 512. The body resets the accumulator when
   k = 0, adds one partial product at every k, and writes the output block (accumulator + low-rank term + bias) when
   k = 7. Here: the windows' blocks, the two branch conditions in closed form over the grid, where the output window is
   idle, the staging and scratch memrefs, and the region invariant split into the accumulator and the rest. -/
import proofs.«149985_j87849261072827_1_alg».proof.Proof.Gen.KernelIdeal.Launch
import proofs.«149985_j87849261072827_1_alg».proof.Proof.Gen.KernelIdeal.Skeleton
import proofs.«149985_j87849261072827_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The branch conditions -/

/-- "k = 0": the accumulator is reset. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "k = 7": the output block is written. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where k = 0 the output window is idle and not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- Where 0 < k < 7 likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- Where k = 7 the output window is live. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S1024x1024 .f32 := (Memref.whole cc1_stg6_0 : Memref sig .tc .vmem S1024x1024 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1024 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from one grid point to the next. -/
abbrev scM1_0 : Memref sig .tc .vmem S1024x1024 .f32 := Memref.whole cc1_scratch0
abbrev VS1_0 : View sig .tc .vmem S1024x1024 .f32 := scM1_0.view

/-- The scoped rest of this region with the accumulator's share `P` singled out: the other kernel's four staging
    buffers at some contents, then `P`. -/
def restS (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

/-- The class invariant (scoped rest and generator register) with the accumulator as a memref owned at some contents. -/
theorem PhiA1_eq (c : Dev nD) :
    (Pipeline.ΦA spec1 c : sProp 𝕄)
      = iprop(restS c (iprop(∃ d, owns (c : Thread nD τ) scM1_0 fullShare d)) ∗ (∃ r, prngReg c r)) := by
  unfold Pipeline.ΦA restS; rw [scopedRest1_eq]; simp only [scM1_0, owns_whole]; try rfl

end Cert.KernelIdeal.Fr

end
-- ==== Proof.FrMMRunA.lean ====
/- The matrix-product body run whole in the case k = 0 (the accumulator is reset, then receives the first partial product; the output block is left untouched): the pieces its stores leave in the accumulator (and, when k = 7, in
   the output block) are found by running the body, with the proof that on whole memrefs the body runs to its
   continuation with the inputs as they were. -/
import proofs.«149985_j87849261072827_1_alg».proof.Proof.FrMMBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, last first, in the case k = 0 (the accumulator is reset, then receives the first partial product; the output block is left untouched), with the body's triple. -/
noncomputable def kernelRun1_A (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) :
    Σ' (L6 : List (View.Piece (Elt F) S1024x1024 .f32)), { LS0 : List (View.Piece (Elt F) S1024x1024 .f32) //
      ∀ (xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨[], ?_, fun xi6 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.FrMMRunB.lean ====
/- The matrix-product body run whole in the case 0 < k < 7 (the accumulator receives one more partial product; the output block is left untouched): the pieces its stores leave in the accumulator (and, when k = 7, in
   the output block) are found by running the body, with the proof that on whole memrefs the body runs to its
   continuation with the inputs as they were. -/
import proofs.«149985_j87849261072827_1_alg».proof.Proof.FrMMRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, last first, in the case 0 < k < 7 (the accumulator receives one more partial product; the output block is left untouched), with the body's triple. -/
noncomputable def kernelRun1_B (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    Σ' (L6 : List (View.Piece (Elt F) S1024x1024 .f32)), { LS0 : List (View.Piece (Elt F) S1024x1024 .f32) //
      ∀ (xi6 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨[], ?_, fun xi6 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.FrMMRunC.lean ====
/- The matrix-product body run whole in the case k = 7 (the accumulator receives the last partial product and the output block is written): the pieces its stores leave in the accumulator (and, when k = 7, in
   the output block) are found by running the body, with the proof that on whole memrefs the body runs to its
   continuation with the inputs as they were. -/
import proofs.«149985_j87849261072827_1_alg».proof.Proof.FrMMRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, last first, in the case k = 7 (the accumulator receives the last partial product and the output block is written), with the body's triple. -/
noncomputable def kernelRun1_C (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    Σ' (L6 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__matmul_kernel i arg3 harg3 arg4 harg4 arg5 harg5 arg6 harg6 arg7 harg7 arg8 harg8 arg9 harg9 arg10 harg10) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Fr

end
-- ==== Proof.FrMM.lean ====
/- The matrix-product region at a PARAMETER `V`, the rest: what each case leaves in the accumulator and in the output
   block, what they hold point by point along the grid (the accumulator after point t is the sum of the partial
   products of the k-blocks met since the last reset), the region invariant that carries the accumulator from one point to
   the next, the proof data, and the body obligation by cases on k. -/
import proofs.«149985_j87849261072827_1_alg».proof.Proof.FrMMRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What case A leaves in the output block (nothing is stored: a placeholder nothing consults): its pieces read back. -/
def out1_A_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) : Vec F S1024x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

/-- Case A's stores into the accumulator cover it. -/
theorem scover1_A_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (y : S1024x1024.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S1024x1024.size (by sl_kernel_rfl) y

/-- What case A leaves in the accumulator: its pieces read back. -/
def sout1_A_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

/-- What case B leaves in the output block (nothing is stored: a placeholder nothing consults): its pieces read back. -/
def out1_B_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

/-- Case B's stores into the accumulator cover it. -/
theorem scover1_B_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) (y : S1024x1024.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What case B leaves in the accumulator: its pieces read back. -/
def sout1_B_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

/-- When k = 7 the one store into the output block covers it. -/
theorem cover1_C_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S1024x1024.size (by sl_kernel_rfl) y

/-- What case C leaves in the output block: its pieces read back. -/
def out1_C_6 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

/-- Case C's stores into the accumulator cover it. -/
theorem scover1_C_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What case C leaves in the accumulator: its pieces read back. -/
def sout1_C_0 (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

/-! ## What the output block and the accumulator hold after each point -/

/-- THE ACCUMULATION: the pair (output block, accumulator) after the body at grid position `n`, by recursion on the
    position: the case the position's k selects, run on the point's input blocks and, when k > 0, on the accumulator the
    point before left. -/
def outsAt1 (c : Dev nD) : (n : ℕ) → n < cfg1.N → Vec F S1024x1024 .f32 × Vec F S1024x1024 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- `outsAt1` at a point with k = 0. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point with 0 < k < 7: over the accumulator the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 7: over the accumulator the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest and generator register at
    anything; afterwards the accumulator at what the point before left in it. -/
def PhiS (c : Dev nD) : (n : ℕ) → n ≤ cfg1.N → sProp 𝕄
  | 0, _ => Pipeline.ΦA spec1 c
  | n + 1, hn => iprop(restS c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restS c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restS c (owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the matrix-product pipeline on core `c`: arrays as found; after the body each input block in
    place and the output block at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the closed forms of the conditions say which case the point is in; the invariant hands the
    body the accumulator at what the point before left (at anything at the very first point) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc V c t, PhiS_pos V c _ _ hz]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      · rw [PhiS_castSucc V c t, PhiS_pos V c _ _ hz]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        unfold restS
        iintro ⟨⟨⟨HA, HB, HC, HD, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation of the matrix-product pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the scoped rest back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold restS
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Fr

end
-- ==== Proof.FrRun.lean ====
/- THE RUN of the whole program: the quantization region, five host operations (the scales repeated along their groups,
   the down-projection of x, the bias as a row), the matrix-product region. The buffer contents at each boundary are a
   fold from the launch memory: a region leaves its arrays at what its write-backs leave and every other buffer as
   entered; a host stretch leaves what its operations compute. Every weakly fair execution terminates with every
   unscoped buffer at the last boundary's contents; the argument arrays read back through the fold are as launched. -/
import proofs.«149985_j87849261072827_1_alg».proof.Proof.FrQuant
import proofs.«149985_j87849261072827_1_alg».proof.Proof.FrMM
import proofs.«149985_j87849261072827_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the quantization region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the quantization region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the matrix-product region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the matrix-product region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := StableHlo.after_of_writes_sub hostOps1 _ hostOps1_writes (by decide)
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 4).trans (((dat1 (V2 m ρ) c).arrAt_in 4 rfl _).trans (A_eq1 (V2 m ρ) c 4))
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The quantization region as a segment over the thread state "every unscoped buffer at the boundary's contents, the
    generator register at some state, nothing owed": its arrays split out of the unscoped buffers on entry and put back
    at the exit contents; the generator register into the region invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region as a segment over the thread state "every unscoped buffer at the boundary's contents, the
    generator register at some state, nothing owed": its arrays split out of the unscoped buffers on entry and put back
    at the exit contents; the generator register into the region invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BI.Entails.trans (hout1 (V2 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state has every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE FRAME at any float instance: every weakly fair execution terminates, nothing faulting, and the six argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Fr

end
-- ==== Proof.FrPieces.lean ====
/- What the matrix-product body leaves, case by case, as the body's arithmetic applied to the input blocks: the
   accumulator after a point is the partial product of the point's blocks added to the accumulator before it (to zero
   when k = 0); the output block at k = 7 is that accumulator plus the low-rank product plus the bias row. -/
import proofs.«149985_j87849261072827_1_alg».proof.Proof.FrMM
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- 0 < k < 7: the accumulator becomes the old accumulator plus this k-block's partial product. -/
theorem sout1_B_0_eq (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    sout1_B_0 c i arg3 harg3 arg4 harg4 arg5 harg5 arg6 harg6 arg7 harg7 arg8 harg8 arg9 harg9 arg10 harg10 hc0 hc1 x0 x1 x2 x3 x4 x5 xs0 = k1_pay2 x1 x2 x0 xs0 := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 x4 x5 xs0)]
  unfold kernelRun1_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x512) hz2, View.ld_unit_zero (S := S1024x1024) hz2, View.ld_unit_zero (S := S1024x32) hz2, View.ld_unit_zero (S := S1x1024) hz2]

/-- k = 7: the same for the accumulator, -/
theorem sout1_C_0_eq (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    sout1_C_0 c i arg3 harg3 arg4 harg4 arg5 harg5 arg6 harg6 arg7 harg7 arg8 harg8 arg9 harg9 arg10 harg10 hc0 hc1 x0 x1 x2 x3 x4 x5 xs0 = k1_pay2 x1 x2 x0 xs0 := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x512) hz2, View.ld_unit_zero (S := S1024x1024) hz2, View.ld_unit_zero (S := S1024x32) hz2, View.ld_unit_zero (S := S1x1024) hz2]

/-- and the output block is the new accumulator plus the low-rank product plus the bias row. -/
theorem out1_C_6_eq (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond1_0 i) (hc1 : cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) (xs0 : Vec F S1024x1024 .f32) :
    out1_C_6 c i arg3 harg3 arg4 harg4 arg5 harg5 arg6 harg6 arg7 harg7 arg8 harg8 arg9 harg9 arg10 harg10 hc0 hc1 x0 x1 x2 x3 x4 x5 xs0 = k1_pay3 x3 x4 (k1_pay2 x1 x2 x0 xs0) x5 := by
  unfold out1_C_6
  rw [View.read_writes_eq_canon _ _ _ (cover1_C_6 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S1024x512) hz2, View.ld_unit_zero (S := S1024x1024) hz2, View.ld_unit_zero (S := S1024x32) hz2, View.ld_unit_zero (S := S1x1024) hz2]
  rw [View.readCov_unit_zero _ hz2]

/-- k = 0: the accumulator is reset to zero, then receives the first partial product. -/
theorem sout1_A_0_eq (c : Dev nD) (i : grid1.Coords) (arg3 : Memref sig .tc .vmem S1024x512 .bf16) (harg3 : arg3.IsWhole) (arg4 : Memref sig .tc .vmem S1024x512 .i32) (harg4 : arg4.IsWhole) (arg5 : Memref sig .tc .vmem S1024x512 .f32) (harg5 : arg5.IsWhole) (arg6 : Memref sig .tc .vmem S1024x32 .f32) (harg6 : arg6.IsWhole) (arg7 : Memref sig .tc .vmem S1024x32 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond1_0 i) (hc1 : ¬cond1_1 i)
    (x0 : Vec F S1024x512 .bf16) (x1 : Vec F S1024x512 .i32) (x2 : Vec F S1024x512 .f32) (x3 : Vec F S1024x32 .f32) (x4 : Vec F S1024x32 .f32) (x5 : Vec F S1x1024 .f32) :
    sout1_A_0 c i arg3 harg3 arg4 harg4 arg5 harg5 arg6 harg6 arg7 harg7 arg8 harg8 arg9 harg9 arg10 harg10 hc0 hc1 x0 x1 x2 x3 x4 x5 = k1_pay2 x1 x2 x0 (k1_pay1 (F := F)) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero hz2]
  simp only [View.readAt_eq_ld, harg3.read_unread, harg4.read_unread, harg5.read_unread, harg6.read_unread, harg7.read_unread, harg8.read_unread, harg9.read_unread, harg10.read_unread, View.ld_unit_zero (S := S1024x512) hz2, View.ld_unit_zero (S := S1024x1024) hz2, View.ld_unit_zero (S := S1024x32) hz2, View.ld_unit_zero (S := S1x1024) hz2]
  rw [View.readCov_unit_zero _ hz2]

end Cert.KernelIdeal.Fr

end
-- ==== Proof.Spec.lean ====
/-
  The mathematics both programs compute, stated once over the argument arrays as extended reals, index by index.

  For a token row t of x (4096 entries):
    amax  = the largest of |x t j| over the row, taken from −∞ (|a| is max a (−a));
    step  = max(amax, 1e-6) / 7;
    qrow  = min(7, max(−8, roundHalfEven(x t i / step))) · step          — the row snapped to 16 levels of its own step.
  A weight code q (a signed 32-bit integer) with its group's scale s stands for the real  q · s; column i of an
  output channel o belongs to group i / 64.  The result at (t, o) is

      ( Σ_i qrow(x t ·) i · (q[o,i] · ws[o, i/64])  +  Σ_r ( Σ_i x[t,i] · ld[r,i] ) · lu[o,r] )  +  b[o].

  Neither sum carries a leading zero term.  The constants are −∞, 7, −8 and the f32 value nearest 1e-6, each written
  as the 32-bit word that denotes it.
-/
import Idealize.ShloMosaic.PureOps.Ideal
import Idealize.ShloMosaic.Lib.ValueIdx

noncomputable section

open scoped BigOperators

namespace Cert.Spec

open Idealize.ShloMosaic Idealize.ShloMosaic.ValueIdx

/-- The largest magnitude of a row: the maximum, from −∞, of max (a, −a) over the row's 4096 entries. -/
def amax (row : Fin 4096 → EReal) : EReal :=
  (Finset.univ : Finset (Fin 4096)).fold max (Ideal.ofBits .f32 0xFF800000#32) (fun j => max (row j) (-(row j)))

/-- The row's quantization step: max(amax, 1e-6) / 7. -/
def step (row : Fin 4096 → EReal) : EReal :=
  Ideal.div (max (amax row) (Ideal.ofBits .f32 0x358637BD#32)) (Ideal.ofBits .f32 0x40E00000#32)

/-- Entry i of the row after symmetric 4-bit fake quantization with the row's own step:
    min(7, max(−8, roundHalfEven(row i / step))) · step. -/
def qrow (row : Fin 4096 → EReal) (i : Fin 4096) : EReal :=
  min (Ideal.ofBits .f32 0x40E00000#32)
      (max (Ideal.ofBits .f32 0xC1000000#32) (Ideal.liftRound Ideal.roundHalfEven (Ideal.div (row i) (step row))))
    * step row

/-- A weight code read as a signed integer, times its group's scale. -/
def deq (q : BitVec 32) (s : EReal) : EReal := ((q.toInt : ℝ) : EReal) * s

/-- The group (of 64 consecutive input columns) that input column i belongs to. -/
def grp (i : Fin 4096) : Fin 64 := ⟨i.val / 64, by have := i.isLt; omega⟩

/-- Row t of a [4096, 4096] array as a function of the column. -/
def rowOf (x : (⟨2, ![4096, 4096]⟩ : Shape).Idx → EReal) (t : Fin 4096) : Fin 4096 → EReal := fun k => x (ix2 t k)

/-- The quantized main product at (t, o): Σ_i qrow(x t ·) i · (q[o,i] · ws[o, i/64]). -/
def mainAt (x : (⟨2, ![4096, 4096]⟩ : Shape).Idx → EReal) (qw : (⟨2, ![4096, 4096]⟩ : Shape).Idx → BitVec 32)
    (ws : (⟨2, ![4096, 64]⟩ : Shape).Idx → EReal) (t o : Fin 4096) : EReal :=
  ∑ i : Fin 4096, qrow (rowOf x t) i * deq (qw (ix2 o i)) (ws (ix2 o (grp i)))

/-- The down-projection of token t on rank direction r, at full precision: Σ_i x[t,i] · ld[r,i]. -/
def downAt (x : (⟨2, ![4096, 4096]⟩ : Shape).Idx → EReal) (ld : (⟨2, ![32, 4096]⟩ : Shape).Idx → EReal)
    (t : Fin 4096) (r : Fin 32) : EReal :=
  ∑ i : Fin 4096, x (ix2 t i) * ld (ix2 r i)

/-- The low-rank correction at (t, o): Σ_r (Σ_i x[t,i] · ld[r,i]) · lu[o,r]. -/
def loraAt (x : (⟨2, ![4096, 4096]⟩ : Shape).Idx → EReal) (ld : (⟨2, ![32, 4096]⟩ : Shape).Idx → EReal)
    (lu : (⟨2, ![4096, 32]⟩ : Shape).Idx → EReal) (t o : Fin 4096) : EReal :=
  ∑ r : Fin 32, downAt x ld t r * lu (ix2 o r)

/-- The result at token t, output channel o: (main + low-rank correction) + bias. -/
def outAt (x : (⟨2, ![4096, 4096]⟩ : Shape).Idx → EReal) (qw : (⟨2, ![4096, 4096]⟩ : Shape).Idx → BitVec 32)
    (ws : (⟨2, ![4096, 64]⟩ : Shape).Idx → EReal) (ld : (⟨2, ![32, 4096]⟩ : Shape).Idx → EReal)
    (lu : (⟨2, ![4096, 32]⟩ : Shape).Idx → EReal) (b : (⟨1, ![4096]⟩ : Shape).Idx → EReal) (t o : Fin 4096) : EReal :=
  (mainAt x qw ws t o + loraAt x ld lu t o) + b (ix1 o)

/-- The whole result array as one function of the six argument arrays. -/
def G (x : (⟨2, ![4096, 4096]⟩ : Shape).Idx → EReal) (qw : (⟨2, ![4096, 4096]⟩ : Shape).Idx → BitVec 32)
    (ws : (⟨2, ![4096, 64]⟩ : Shape).Idx → EReal) (ld : (⟨2, ![32, 4096]⟩ : Shape).Idx → EReal)
    (lu : (⟨2, ![4096, 32]⟩ : Shape).Idx → EReal) (b : (⟨1, ![4096]⟩ : Shape).Idx → EReal) :
    (⟨2, ![4096, 4096]⟩ : Shape).Idx → EReal :=
  fun j => outAt x qw ws ld lu b (j 0) (j 1)

/-- At the index (t, o) the array is the entry at token t, channel o. -/
theorem G_ix2 (x : (⟨2, ![4096, 4096]⟩ : Shape).Idx → EReal) (qw : (⟨2, ![4096, 4096]⟩ : Shape).Idx → BitVec 32)
    (ws : (⟨2, ![4096, 64]⟩ : Shape).Idx → EReal) (ld : (⟨2, ![32, 4096]⟩ : Shape).Idx → EReal)
    (lu : (⟨2, ![4096, 32]⟩ : Shape).Idx → EReal) (b : (⟨1, ![4096]⟩ : Shape).Idx → EReal) (t o : Fin 4096) :
    G x qw ws ld lu b (ix2 t o) = outAt x qw ws ld lu b t o := rfl

end Cert.Spec

end
-- ==== Proof.PayAcc.lean ====
/-
  The matmul kernel's two accumulator payloads read at one entry (p, q) of the 1024 × 1024 block.

  * The value stored at the first contraction step is the zero matrix: every entry is 0.
  * The value stored at every contraction step is the accumulator block plus the product of the
    activation block's row p with the dequantized weight block's row q: the code at (q, k), read as
    a signed integer, times the scale at (q, k), summed over the 512 columns k of the step. Format
    changes to and from sixteen bits are the identity on extended reals, and the casts to the same
    shape are the identity on the values.
-/
import proofs.«149985_j87849261072827_1_alg».proof.Proof.Gen.KernelIdeal.Skeleton
import proofs.«149985_j87849261072827_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.SL.Sem Idealize.ShloMosaic.ValueIdx Cert.KernelIdeal Cert.KernelIdeal.Gen

/-- Every entry of the value that clears the accumulator is zero. -/
theorem k1_pay1_apply (p q : Fin 1024) : Gen.k1_pay1 (F := Ideal) (ix2 p q) = 0 := by
  unfold Gen.k1_pay1
  rw [shapeCast_self]
  exact Ideal.ofBits_zero_f32

/-- A product of two matrices with 512 columns each, contracted along the columns, into the zero
    matrix: entry (p, q) is the sum over the column k of A (p, k) · B (q, k). -/
theorem matmul_rows_512 {φ₁ φ₂ : FTy} (A : FVec Ideal S1024x512 φ₁) (B : FVec Ideal S1024x512 φ₂) (p q : Fin 1024) :
    matmul dot_S1024x512_S1024x512_S1024x1024_1_1_0_0_n_n none A B (constant S1024x1024 .f32 0x00000000#32) (ix2 p q)
      = ∑ k : Fin 512, A (ix2 p k) * B (ix2 q k) := by
  show FloatOps.matmul dot_S1024x512_S1024x512_S1024x1024_1_1_0_0_n_n none A B (constant S1024x1024 .f32 0x00000000#32) (ix2 p q) = _
  rw [Ideal.matmul_constant_zero_apply,
    ← Equiv.sum_comp (contrEquiv1 dot_S1024x512_S1024x512_S1024x1024_1_1_0_0_n_n 512 rfl rfl).symm]
  refine Finset.sum_congr rfl fun c _ => ?_
  have c2 := contrEquiv1_symm_val dot_S1024x512_S1024x512_S1024x1024_1_1_0_0_n_n 512 rfl rfl c
  have l2 : dot_S1024x512_S1024x512_S1024x1024_1_1_0_0_n_n.lhsIdx (ix2 p q)
      ((contrEquiv1 dot_S1024x512_S1024x512_S1024x1024_1_1_0_0_n_n 512 rfl rfl).symm c) = ix2 p c := by
    funext ax; apply Fin.ext
    match ax with
    | ⟨0, _⟩ => simp [DotDims.lhsIdx, dot_S1024x512_S1024x512_S1024x1024_1_1_0_0_n_n]; rfl
    | ⟨1, _⟩ => simp [DotDims.lhsIdx, dot_S1024x512_S1024x512_S1024x1024_1_1_0_0_n_n]; exact c2
  have r2 : dot_S1024x512_S1024x512_S1024x1024_1_1_0_0_n_n.rhsIdx (ix2 p q)
      ((contrEquiv1 dot_S1024x512_S1024x512_S1024x1024_1_1_0_0_n_n 512 rfl rfl).symm c) = ix2 q c := by
    funext ax; apply Fin.ext
    match ax with
    | ⟨0, _⟩ => simp [DotDims.rhsIdx, dot_S1024x512_S1024x512_S1024x1024_1_1_0_0_n_n]; rfl
    | ⟨1, _⟩ => simp [DotDims.rhsIdx, dot_S1024x512_S1024x512_S1024x1024_1_1_0_0_n_n]; exact c2
  rw [l2, r2]

/-- One accumulation step at entry (p, q): the accumulator there plus the sum over the step's 512
    columns of the activation at (p, k) times the dequantized weight at (q, k). -/
theorem k1_pay2_apply (v3 : Vec Ideal S1024x512 .i32) (v5 : Vec Ideal S1024x512 .f32) (v9 : Vec Ideal S1024x512 .bf16)
    (v11 : Vec Ideal S1024x1024 .f32) (p q : Fin 1024) :
    Gen.k1_pay2 (F := Ideal) v3 v5 v9 v11 (ix2 p q)
      = v11 (ix2 p q) + ∑ k : Fin 512, v9 (ix2 p k) * Cert.Spec.deq (v3 (ix2 q k)) (v5 (ix2 q k)) := by
  unfold Gen.k1_pay2
  rw [shapeCast_self, shapeCast_self, shapeCast_self]
  rw [addf_apply, matmul_rows_512]
  rfl

end Cert.KernelIdeal.Pay

end
-- ==== Proof.PayOut.lean ====
/-
  The matmul kernel's output payload read at one entry (p, q) of the 1024 × 1024 block: the
  accumulator there, plus the low-rank correction — row p of the down-projected activations times
  row q of the up-projection, summed over the 32 rank directions —, plus the bias of output channel
  q (the one-row bias block laid along every row). The sums are grouped as written here.
-/
import proofs.«149985_j87849261072827_1_alg».proof.Proof.Gen.KernelIdeal.Skeleton
import proofs.«149985_j87849261072827_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.SL.Sem Idealize.ShloMosaic.ValueIdx Cert.KernelIdeal Cert.KernelIdeal.Gen

/-- A product of two matrices with 32 columns each, contracted along the columns, into the zero
    matrix: entry (p, q) is the sum over the column k of A (p, k) · B (q, k). -/
theorem matmul_rows_32 {φ₁ φ₂ : FTy} (A : FVec Ideal S1024x32 φ₁) (B : FVec Ideal S1024x32 φ₂) (p q : Fin 1024) :
    matmul dot_S1024x32_S1024x32_S1024x1024_1_1_0_0_n_n none A B (constant S1024x1024 .f32 0x00000000#32) (ix2 p q)
      = ∑ k : Fin 32, A (ix2 p k) * B (ix2 q k) := by
  show FloatOps.matmul dot_S1024x32_S1024x32_S1024x1024_1_1_0_0_n_n none A B (constant S1024x1024 .f32 0x00000000#32) (ix2 p q) = _
  rw [Ideal.matmul_constant_zero_apply,
    ← Equiv.sum_comp (contrEquiv1 dot_S1024x32_S1024x32_S1024x1024_1_1_0_0_n_n 32 rfl rfl).symm]
  refine Finset.sum_congr rfl fun c _ => ?_
  have c2 := contrEquiv1_symm_val dot_S1024x32_S1024x32_S1024x1024_1_1_0_0_n_n 32 rfl rfl c
  have l2 : dot_S1024x32_S1024x32_S1024x1024_1_1_0_0_n_n.lhsIdx (ix2 p q)
      ((contrEquiv1 dot_S1024x32_S1024x32_S1024x1024_1_1_0_0_n_n 32 rfl rfl).symm c) = ix2 p c := by
    funext ax; apply Fin.ext
    match ax with
    | ⟨0, _⟩ => simp [DotDims.lhsIdx, dot_S1024x32_S1024x32_S1024x1024_1_1_0_0_n_n]; rfl
    | ⟨1, _⟩ => simp [DotDims.lhsIdx, dot_S1024x32_S1024x32_S1024x1024_1_1_0_0_n_n]; exact c2
  have r2 : dot_S1024x32_S1024x32_S1024x1024_1_1_0_0_n_n.rhsIdx (ix2 p q)
      ((contrEquiv1 dot_S1024x32_S1024x32_S1024x1024_1_1_0_0_n_n 32 rfl rfl).symm c) = ix2 q c := by
    funext ax; apply Fin.ext
    match ax with
    | ⟨0, _⟩ => simp [DotDims.rhsIdx, dot_S1024x32_S1024x32_S1024x1024_1_1_0_0_n_n]; rfl
    | ⟨1, _⟩ => simp [DotDims.rhsIdx, dot_S1024x32_S1024x32_S1024x1024_1_1_0_0_n_n]; exact c2
  rw [l2, r2]

/-- The stored result at entry (p, q): (accumulator + Σ_r tmp (p, r) · up (q, r)) + bias q. -/
theorem k1_pay3_apply (v20 v23 : Vec Ideal S1024x32 .f32) (v26 : Vec Ideal S1024x1024 .f32) (v28 : Vec Ideal S1x1024 .f32)
    (p q : Fin 1024) :
    Gen.k1_pay3 (F := Ideal) v20 v23 v26 v28 (ix2 p q)
      = (v26 (ix2 p q) + ∑ r : Fin 32, v20 (ix2 p r) * v23 (ix2 q r)) + v28 (ix2 0 q) := by
  unfold Gen.k1_pay3
  rw [shapeCast_self, shapeCast_self]
  rw [addf_apply, addf_apply, matmul_rows_32, broadcastTo_1b_ab_apply]
  rfl

end Cert.KernelIdeal.Pay

end
-- ==== Proof.BlockSum.lean ====
/-
  Sums cut into consecutive blocks, and a running sum in closed form.

  * A sum over `Fin (m * n)` is the double sum over the block number `a : Fin m` and the position
    `b : Fin n` inside the block, the entry `a * n + b` (`sum_blocks`, `sum_blocks_nat`); at eight
    blocks of 512 this is a sum over `Fin 4096` (`sum_8_512`, `sum_8_512_nat`).
  * A sequence with `s 0 = a 0` and `s (n + 1) = s n + a (n + 1)` is the partial sum
    `s n = ∑ j ∈ range (n + 1), a j` (`acc_closed`; `acc_closed_lt` when the recurrence is only known
    below a bound), and the same over `Fin (N + 1)` (`acc_closed_fin`, `acc_closed_last`).
  Everything holds in any commutative additive monoid: no cancellation and no finiteness is used.
-/
import Mathlib.Algebra.BigOperators.Fin
import Mathlib.Logic.Equiv.Fin.Basic

open scoped BigOperators

namespace Cert.Algebra

variable {M : Type*} [AddCommMonoid M]

/-- Entry `b` of block `a`, of `m` blocks of `n` entries each, is below `m * n`. -/
theorem blk_lt {m n : ℕ} (a : Fin m) (b : Fin n) : a.val * n + b.val < m * n := by
  have ha := a.isLt
  have hb := b.isLt
  calc a.val * n + b.val < a.val * n + n := Nat.add_lt_add_left hb _
    _ = (a.val + 1) * n := (Nat.succ_mul _ _).symm
    _ ≤ m * n := Nat.mul_le_mul_right n ha

/-- A sum over `Fin (m * n)` block by block: block `a` holds the entries `a * n + b`, `b < n`. -/
theorem sum_blocks (m n : ℕ) (f : Fin (m * n) → M)
    (h : ∀ (a : Fin m) (b : Fin n), a.val * n + b.val < m * n) :
    ∑ a : Fin m, ∑ b : Fin n, f ⟨a.val * n + b.val, h a b⟩ = ∑ k : Fin (m * n), f k := by
  rw [← Fintype.sum_prod_type', ← Equiv.sum_comp finProdFinEquiv f]
  refine Fintype.sum_congr _ _ fun x => congrArg f (Fin.ext ?_)
  show x.1.val * n + x.2.val = x.2.val + n * x.1.val
  rw [Nat.mul_comm, Nat.add_comm]

/-- The same for a function of the natural number under the index. -/
theorem sum_blocks_nat (m n : ℕ) (g : ℕ → M) :
    ∑ a : Fin m, ∑ b : Fin n, g (a.val * n + b.val) = ∑ k : Fin (m * n), g k.val :=
  sum_blocks m n (fun k => g k.val) (fun a b => blk_lt a b)

/-- Eight blocks of 512 entries make a sum over `Fin 4096`. -/
theorem sum_8_512 (f : Fin 4096 → M) (h : ∀ (kb : Fin 8) (kk : Fin 512), kb.val * 512 + kk.val < 4096) :
    ∑ kb : Fin 8, ∑ kk : Fin 512, f ⟨kb.val * 512 + kk.val, h kb kk⟩ = ∑ k : Fin 4096, f k :=
  sum_blocks 8 512 f h

/-- The same for a function of the natural number under the index. -/
theorem sum_8_512_nat (g : ℕ → M) :
    ∑ kb : Fin 8, ∑ kk : Fin 512, g (kb.val * 512 + kk.val) = ∑ k : Fin 4096, g k.val :=
  sum_blocks_nat 8 512 g

/-- A running sum in closed form: started at `a 0` and fed `a (n + 1)` at step `n + 1`, it is the
    partial sum of `a` up to `n`. -/
theorem acc_closed (s a : ℕ → M) (h0 : s 0 = a 0) (hs : ∀ n, s (n + 1) = s n + a (n + 1)) (n : ℕ) :
    s n = ∑ j ∈ Finset.range (n + 1), a j := by
  induction n with
  | zero => rw [h0, Finset.sum_range_one]
  | succ n ih => rw [hs, ih, Finset.sum_range_succ _ (n + 1)]

/-- The same when the recurrence is known only for the steps below a bound `N`. -/
theorem acc_closed_lt (N : ℕ) (s a : ℕ → M) (h0 : s 0 = a 0)
    (hs : ∀ n, n + 1 < N → s (n + 1) = s n + a (n + 1)) (n : ℕ) (hn : n < N) :
    s n = ∑ j ∈ Finset.range (n + 1), a j := by
  induction n with
  | zero => rw [h0, Finset.sum_range_one]
  | succ n ih => rw [hs n hn, ih (by omega), Finset.sum_range_succ _ (n + 1)]

/-- A partial sum over `range (n + 1)` as a sum over `Fin (n + 1)`. -/
theorem sum_range_eq_sum_fin (a : ℕ → M) (n : ℕ) :
    ∑ j ∈ Finset.range n, a j = ∑ j : Fin n, a j.val :=
  (Fin.sum_univ_eq_sum_range a n).symm

/-- The running sum over `Fin (N + 1)`: after step `n` it is the sum of the first `n + 1` terms. -/
theorem acc_closed_fin {N : ℕ} (s a : Fin (N + 1) → M) (h0 : s 0 = a 0)
    (hs : ∀ (n : ℕ) (h : n + 1 < N + 1), s ⟨n + 1, h⟩ = s ⟨n, by omega⟩ + a ⟨n + 1, h⟩)
    (n : ℕ) (hn : n < N + 1) :
    s ⟨n, hn⟩ = ∑ j : Fin (n + 1), a ⟨j.val, by have := j.isLt; omega⟩ := by
  induction n with
  | zero =>
    rw [Fin.sum_univ_one]
    exact h0
  | succ n ih =>
    rw [hs n hn, ih (by omega), Fin.sum_univ_castSucc (n := n + 1)]
    rfl

/-- After the last step the running sum over `Fin (N + 1)` is the whole sum. -/
theorem acc_closed_last {N : ℕ} (s a : Fin (N + 1) → M) (h0 : s 0 = a 0)
    (hs : ∀ (n : ℕ) (h : n + 1 < N + 1), s ⟨n + 1, h⟩ = s ⟨n, by omega⟩ + a ⟨n + 1, h⟩) :
    s (Fin.last N) = ∑ j : Fin (N + 1), a j :=
  acc_closed_fin s a h0 hs N (Nat.lt_succ_self N)

/-- Eight steps: a running sum over `Fin 8` ends at the sum of all eight terms. -/
theorem acc_closed_8 (s a : Fin 8 → M) (h0 : s 0 = a 0)
    (hs : ∀ (n : ℕ) (h : n + 1 < 8), s ⟨n + 1, h⟩ = s ⟨n, by omega⟩ + a ⟨n + 1, h⟩) :
    s 7 = ∑ j : Fin 8, a j :=
  acc_closed_last (N := 7) s a h0 hs

end Cert.Algebra
-- ==== Proof.KValAcc.lean ====
/- The matrix-product region read as values over the extended reals, at a PARAMETER `V` (the buffer contents the region is
   entered from). Grid point t = 32·I + 8·J + k works on output tile (I, J) and contraction block k. The blocks of the
   seven windows at t are named by coordinates; the accumulator after point t is Σ_{kb ≤ k} Σ_{kk < 512} of the products
   at contraction index 512·kb + kk (induction along the grid); at k = 7 the output tile receives the full contraction
   plus the rank-32 product plus the bias row. -/
import proofs.«149985_j87849261072827_1_alg».proof.Proof.FrPieces
import proofs.«149985_j87849261072827_1_alg».proof.Proof.PayAcc
import proofs.«149985_j87849261072827_1_alg».proof.Proof.PayOut
import proofs.«149985_j87849261072827_1_alg».proof.Proof.BlockSum
import proofs.«149985_j87849261072827_1_alg».proof.Proof.Spec
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- A [4096, 4096] array read at natural-number coordinates (a default value outside the array: never consulted). -/
def aN {α : Type} (d : α) (A : S4096x4096.Idx → α) (r k : ℕ) : α :=
  if h : r < 4096 ∧ k < 4096 then A (ix2 ⟨r, h.1⟩ ⟨k, h.2⟩) else d

theorem aN_eq {α : Type} (d : α) (A : S4096x4096.Idx → α) (r k : ℕ) (hr : r < 4096) (hk : k < 4096) :
    aN d A r k = A (ix2 ⟨r, hr⟩ ⟨k, hk⟩) := dif_pos ⟨hr, hk⟩

/-- One product of the main contraction: quantized activation (row R, column kf) times dequantized weight (row C, column kf). -/
def tm (XQa : S4096x4096.Idx → EReal) (QW : S4096x4096.Idx → BitVec 32) (WSF : S4096x4096.Idx → EReal) (R C kf : ℕ) : EReal :=
  aN (0 : EReal) XQa R kf * Cert.Spec.deq (aN (0#32 : BitVec 32) QW C kf) (aN (0 : EReal) WSF C kf)

/-- The block indices of the seven windows at grid point t, decided over the 128 points. -/
theorem idx1 : ∀ t : Fin cfg1.N, win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = t.val / 8 % 4 ∧ win1_2.index t (1 : Fin 2) = t.val % 8
    ∧ win1_3.index t (0 : Fin 2) = t.val / 32 ∧ win1_3.index t (1 : Fin 2) = 0
    ∧ win1_4.index t (0 : Fin 2) = t.val / 8 % 4 ∧ win1_4.index t (1 : Fin 2) = 0
    ∧ win1_5.index t (0 : Fin 2) = 0 ∧ win1_5.index t (1 : Fin 2) = t.val / 8 % 4
    ∧ win1_6.index t (0 : Fin 2) = t.val / 32 ∧ win1_6.index t (1 : Fin 2) = t.val / 8 % 4 :=
  (by decide +kernel : ∀ t : Fin grid1.N, _)

/-! ## The windows' blocks by coordinates -/

theorem blk0 (c : Dev nD) (t : Fin cfg1.N) (p : Fin 1024) (kk : Fin 512) :
    iblk1 V c 0 t (ix2 p kk) = aN (0 : EReal) (V c main_v0) (t.val / 32 * 1024 + p.val) (t.val % 8 * 512 + kk.val) := by
  obtain ⟨e00, e01, e10, e11, e20, e21, e30, e31, e40, e41, e50, e51, e60, e61⟩ := idx1 t
  have hN : t.val < 128 := lt_of_lt_of_eq t.isLt N_1
  have hp := p.isLt; have hk := kk.isLt
  rw [aN_eq _ _ _ _ (by omega) (by omega)]
  show V c main_v0 (((cfg1.win 0).blk t).view.emb (ix2 p kk)) = V c main_v0 _
  refine congrArg _ ?_
  funext a; apply Fin.ext
  match a with
  | ⟨0, _⟩ => show win1_0.index t (0 : Fin 2) * 1024 + 1 * p.val = t.val / 32 * 1024 + p.val; omega
  | ⟨1, _⟩ => show win1_0.index t (1 : Fin 2) * 512 + 1 * kk.val = t.val % 8 * 512 + kk.val; omega

theorem blk1 (c : Dev nD) (t : Fin cfg1.N) (q : Fin 1024) (kk : Fin 512) :
    iblk1 V c 1 t (ix2 q kk) = aN (0#32 : BitVec 32) (V c main_arg1) (t.val / 8 % 4 * 1024 + q.val) (t.val % 8 * 512 + kk.val) := by
  obtain ⟨e00, e01, e10, e11, e20, e21, e30, e31, e40, e41, e50, e51, e60, e61⟩ := idx1 t
  have hN : t.val < 128 := lt_of_lt_of_eq t.isLt N_1
  have hq := q.isLt; have hk := kk.isLt
  rw [aN_eq _ _ _ _ (by omega) (by omega)]
  show V c main_arg1 (((cfg1.win 1).blk t).view.emb (ix2 q kk)) = V c main_arg1 _
  refine congrArg _ ?_
  funext a; apply Fin.ext
  match a with
  | ⟨0, _⟩ => show win1_1.index t (0 : Fin 2) * 1024 + 1 * q.val = t.val / 8 % 4 * 1024 + q.val; omega
  | ⟨1, _⟩ => show win1_1.index t (1 : Fin 2) * 512 + 1 * kk.val = t.val % 8 * 512 + kk.val; omega

theorem blk2 (c : Dev nD) (t : Fin cfg1.N) (q : Fin 1024) (kk : Fin 512) :
    iblk1 V c 2 t (ix2 q kk) = aN (0 : EReal) (V c main_v2) (t.val / 8 % 4 * 1024 + q.val) (t.val % 8 * 512 + kk.val) := by
  obtain ⟨e00, e01, e10, e11, e20, e21, e30, e31, e40, e41, e50, e51, e60, e61⟩ := idx1 t
  have hN : t.val < 128 := lt_of_lt_of_eq t.isLt N_1
  have hq := q.isLt; have hk := kk.isLt
  rw [aN_eq _ _ _ _ (by omega) (by omega)]
  show V c main_v2 (((cfg1.win 2).blk t).view.emb (ix2 q kk)) = V c main_v2 _
  refine congrArg _ ?_
  funext a; apply Fin.ext
  match a with
  | ⟨0, _⟩ => show win1_2.index t (0 : Fin 2) * 1024 + 1 * q.val = t.val / 8 % 4 * 1024 + q.val; omega
  | ⟨1, _⟩ => show win1_2.index t (1 : Fin 2) * 512 + 1 * kk.val = t.val % 8 * 512 + kk.val; omega

theorem blk3 (c : Dev nD) (t : Fin cfg1.N) (p : Fin 1024) (r : Fin 32) (hr : t.val / 32 * 1024 + p.val < 4096) :
    iblk1 V c 3 t (ix2 p r) = V c main_v4 (ix2 ⟨t.val / 32 * 1024 + p.val, hr⟩ r) := by
  obtain ⟨e00, e01, e10, e11, e20, e21, e30, e31, e40, e41, e50, e51, e60, e61⟩ := idx1 t
  have hp := p.isLt; have hrr := r.isLt
  show V c main_v4 (((cfg1.win 3).blk t).view.emb (ix2 p r)) = V c main_v4 _
  refine congrArg _ ?_
  funext a; apply Fin.ext
  match a with
  | ⟨0, _⟩ => show win1_3.index t (0 : Fin 2) * 1024 + 1 * p.val = t.val / 32 * 1024 + p.val; omega
  | ⟨1, _⟩ => show win1_3.index t (1 : Fin 2) * 32 + 1 * r.val = r.val; omega

theorem blk4 (c : Dev nD) (t : Fin cfg1.N) (q : Fin 1024) (r : Fin 32) (hq : t.val / 8 % 4 * 1024 + q.val < 4096) :
    iblk1 V c 4 t (ix2 q r) = V c main_arg4 (ix2 ⟨t.val / 8 % 4 * 1024 + q.val, hq⟩ r) := by
  obtain ⟨e00, e01, e10, e11, e20, e21, e30, e31, e40, e41, e50, e51, e60, e61⟩ := idx1 t
  have hqq := q.isLt; have hrr := r.isLt
  show V c main_arg4 (((cfg1.win 4).blk t).view.emb (ix2 q r)) = V c main_arg4 _
  refine congrArg _ ?_
  funext a; apply Fin.ext
  match a with
  | ⟨0, _⟩ => show win1_4.index t (0 : Fin 2) * 1024 + 1 * q.val = t.val / 8 % 4 * 1024 + q.val; omega
  | ⟨1, _⟩ => show win1_4.index t (1 : Fin 2) * 32 + 1 * r.val = r.val; omega

theorem blk5 (c : Dev nD) (t : Fin cfg1.N) (q : Fin 1024) (hq : t.val / 8 % 4 * 1024 + q.val < 4096) :
    iblk1 V c 5 t (ix2 (0 : Fin 1) q) = V c main_v5 (ix2 (0 : Fin 1) ⟨t.val / 8 % 4 * 1024 + q.val, hq⟩) := by
  obtain ⟨e00, e01, e10, e11, e20, e21, e30, e31, e40, e41, e50, e51, e60, e61⟩ := idx1 t
  have hqq := q.isLt
  show V c main_v5 (((cfg1.win 5).blk t).view.emb (ix2 (0 : Fin 1) q)) = V c main_v5 _
  refine congrArg _ ?_
  funext a; apply Fin.ext
  match a with
  | ⟨0, _⟩ => show win1_5.index t (0 : Fin 2) * 1 + 1 * 0 = 0; omega
  | ⟨1, _⟩ => show win1_5.index t (1 : Fin 2) * 1024 + 1 * q.val = t.val / 8 % 4 * 1024 + q.val; omega

/-! ## One step of the accumulation, over variable blocks -/

/-- The partial product a point adds: for blocks that are the arrays' blocks at rows R.., C.. and contraction block k. -/
theorem step_acc (XQa : S4096x4096.Idx → EReal) (QW : S4096x4096.Idx → BitVec 32) (WSF : S4096x4096.Idx → EReal)
    (x0 : Vec Ideal S1024x512 .bf16) (x1 : Vec Ideal S1024x512 .i32) (x2 : Vec Ideal S1024x512 .f32) (xs0 : Vec Ideal S1024x1024 .f32)
    (R C k : ℕ)
    (h0 : ∀ (p : Fin 1024) (kk : Fin 512), x0 (ix2 p kk) = aN (0 : EReal) XQa (R + p.val) (k * 512 + kk.val))
    (h1 : ∀ (q : Fin 1024) (kk : Fin 512), x1 (ix2 q kk) = aN (0#32 : BitVec 32) QW (C + q.val) (k * 512 + kk.val))
    (h2 : ∀ (q : Fin 1024) (kk : Fin 512), x2 (ix2 q kk) = aN (0 : EReal) WSF (C + q.val) (k * 512 + kk.val))
    (p q : Fin 1024) :
    k1_pay2 (F := Ideal) x1 x2 x0 xs0 (ix2 p q) = xs0 (ix2 p q) + ∑ kk : Fin 512, tm XQa QW WSF (R + p.val) (C + q.val) (k * 512 + kk.val) := by
  refine (Cert.KernelIdeal.Pay.k1_pay2_apply x1 x2 x0 xs0 p q).trans ?_
  refine congrArg _ (Finset.sum_congr rfl fun kk _ => ?_)
  unfold tm
  rw [h0, h1, h2]

/-! ## The accumulator along the grid -/

/-- After grid position n the accumulator holds, at (p, q) of its tile, the products of the contraction blocks 0 … n mod 8. -/
theorem acc_at (c : Dev nD) (p q : Fin 1024) : ∀ (n : ℕ) (hn : n < cfg1.N),
    (outsAt1 V c n hn).2 (ix2 p q) = ∑ kb ∈ Finset.range (n % 8 + 1), ∑ kk : Fin 512,
      tm (V c main_v0) (V c main_arg1) (V c main_v2) (n / 32 * 1024 + p.val) (n / 8 % 4 * 1024 + q.val) (kb * 512 + kk.val) := by
  intro n
  induction n with
  | zero =>
    intro hn
    have e := outsAt1_A V c ⟨0, hn⟩ (Nat.zero_mod _) (by show ¬ (0 % 8 = 7); decide)
    have e2 : (outsAt1 V c 0 hn).2 = _ := congrArg Prod.snd e
    rw [e2]; dsimp only
    rw [sout1_A_0_eq]
    refine (step_acc (V c main_v0) (V c main_arg1) (V c main_v2) _ _ _ _ (0 / 32 * 1024) (0 / 8 % 4 * 1024) (0 % 8)
      (fun p kk => blk0 V c ⟨0, hn⟩ p kk) (fun q kk => blk1 V c ⟨0, hn⟩ q kk) (fun q kk => blk2 V c ⟨0, hn⟩ q kk) p q).trans ?_
    rw [Cert.KernelIdeal.Pay.k1_pay1_apply, zero_add]
    simp only [Nat.zero_mod, Nat.zero_div, Finset.range_one, Finset.sum_singleton, Nat.zero_mul, Nat.zero_add, zero_add]
  | succ n ih =>
    intro hn
    have hN : n + 1 < 128 := lt_of_lt_of_eq hn N_1
    by_cases h0 : (n + 1) % 8 = 0
    · have h1 : ¬ (n + 1) % 8 = 7 := by omega
      have e := outsAt1_A V c ⟨n + 1, hn⟩ h0 h1
      have e2 : (outsAt1 V c (n + 1) hn).2 = _ := congrArg Prod.snd e
      rw [e2]; dsimp only
      rw [sout1_A_0_eq]
      refine (step_acc (V c main_v0) (V c main_arg1) (V c main_v2) _ _ _ _ ((n + 1) / 32 * 1024) ((n + 1) / 8 % 4 * 1024) ((n + 1) % 8)
        (fun p kk => blk0 V c ⟨n + 1, hn⟩ p kk) (fun q kk => blk1 V c ⟨n + 1, hn⟩ q kk) (fun q kk => blk2 V c ⟨n + 1, hn⟩ q kk) p q).trans ?_
      rw [Cert.KernelIdeal.Pay.k1_pay1_apply, zero_add, h0]
      simp only [Finset.range_one, Finset.sum_singleton, Nat.zero_mul, Nat.zero_add, zero_add]
    · have hprev := ih (Nat.lt_of_succ_lt hn)
      have d1 : n / 32 = (n + 1) / 32 := by omega
      have d2 : n / 8 % 4 = (n + 1) / 8 % 4 := by omega
      have d3 : n % 8 + 1 = (n + 1) % 8 := by omega
      rw [d1, d2] at hprev
      by_cases h1 : (n + 1) % 8 = 7
      · have e := outsAt1_C V c ⟨n + 1, hn⟩ h0 h1
        have e2 : (outsAt1 V c (n + 1) hn).2 = _ := congrArg Prod.snd e
        rw [e2]; dsimp only
        rw [sout1_C_0_eq]
        refine (step_acc (V c main_v0) (V c main_arg1) (V c main_v2) _ _ _ _ ((n + 1) / 32 * 1024) ((n + 1) / 8 % 4 * 1024) ((n + 1) % 8)
          (fun p kk => blk0 V c ⟨n + 1, hn⟩ p kk) (fun q kk => blk1 V c ⟨n + 1, hn⟩ q kk) (fun q kk => blk2 V c ⟨n + 1, hn⟩ q kk) p q).trans ?_
        rw [Finset.sum_range_succ, ← d3]
        exact congrArg (· + _) hprev
      · have e := outsAt1_B V c ⟨n + 1, hn⟩ h0 h1
        have e2 : (outsAt1 V c (n + 1) hn).2 = _ := congrArg Prod.snd e
        rw [e2]; dsimp only
        rw [sout1_B_0_eq]
        refine (step_acc (V c main_v0) (V c main_arg1) (V c main_v2) _ _ _ _ ((n + 1) / 32 * 1024) ((n + 1) / 8 % 4 * 1024) ((n + 1) % 8)
          (fun p kk => blk0 V c ⟨n + 1, hn⟩ p kk) (fun q kk => blk1 V c ⟨n + 1, hn⟩ q kk) (fun q kk => blk2 V c ⟨n + 1, hn⟩ q kk) p q).trans ?_
        rw [Finset.sum_range_succ, ← d3]
        exact congrArg (· + _) hprev

end Cert.KernelIdeal.Val

end
-- ==== Proof.KValOut.lean ====
/- The output array of the matrix-product region as ONE function of the arrays the region is entered from: at (T, O) the
   full contraction Σ_{kf < 4096} (quantized activation)(T, kf) · (dequantized weight)(O, kf), plus the rank-32 product
   Σ_r tmp(T, r) · lora_up(O, r), plus the bias at O. A tile is written back exactly at the points with k = 7, and those 16
   tiles cover the array. -/
import proofs.«149985_j87849261072827_1_alg».proof.Proof.KValAcc

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- Full contraction + rank-32 product + bias, as a function of six arrays. -/
def GKv (XQa : S4096x4096.Idx → EReal) (QW : S4096x4096.Idx → BitVec 32) (WSF : S4096x4096.Idx → EReal)
    (TMP : S4096x32.Idx → EReal) (LU : S4096x32.Idx → EReal) (B2 : S1x4096.Idx → EReal) : S4096x4096.Idx → EReal := fun j =>
  ((∑ kf : Fin 4096, tm XQa QW WSF (j 0).val (j 1).val kf.val)
    + ∑ r : Fin 32, TMP (ix2 (j 0) r) * LU (ix2 (j 1) r)) + B2 (ix2 (0 : Fin 1) (j 1))

theorem GKv_ix2 (XQa : S4096x4096.Idx → EReal) (QW : S4096x4096.Idx → BitVec 32) (WSF : S4096x4096.Idx → EReal)
    (TMP : S4096x32.Idx → EReal) (LU : S4096x32.Idx → EReal) (B2 : S1x4096.Idx → EReal) (R C : Fin 4096) :
    GKv XQa QW WSF TMP LU B2 (ix2 R C) = ((∑ kf : Fin 4096, tm XQa QW WSF R.val C.val kf.val)
      + ∑ r : Fin 32, TMP (ix2 R r) * LU (ix2 C r)) + B2 (ix2 (0 : Fin 1) C) := rfl

/-- The output array: that function of the arrays the region is entered from. -/
def GK (c : Dev nD) : S4096x4096.Idx → EReal :=
  GKv (V c main_v0) (V c main_arg1) (V c main_v2) (V c main_v4) (V c main_arg4) (V c main_v5)

/-- WHAT A POINT WITH k = 7 WRITES BACK is its tile of `GK`. -/
theorem flushedK_eq (c : Dev nD) (t : Fin cfg1.N) (hf : (cfg1.win 6).flush t = true) :
    (dat1 V c).flushed 6 t = ((cfg1.win 6).blk t).view.read (Elt Ideal) (GK V c) := by
  have h7 : t.val % 8 = 7 := (flush1_6 t).mp hf
  have h0 : ¬ t.val % 8 = 0 := by omega
  have hN : t.val < 128 := lt_of_lt_of_eq t.isLt N_1
  have h8 : t.val % 8 + 1 = 8 := by omega
  obtain ⟨e00, e01, e10, e11, e20, e21, e30, e31, e40, e41, e50, e51, e60, e61⟩ := idx1 t
  have hs : (outsAt1 V c t.val t.isLt).2 = k1_pay2 (F := Ideal) (iblk1 V c 1 t) (iblk1 V c 2 t) (iblk1 V c 0 t) (outsAt1 V c (t.val - 1) (Nat.lt_of_le_of_lt (Nat.sub_le _ _) t.isLt)).2 := by
    have e2 : (outsAt1 V c t.val t.isLt).2 = _ := congrArg Prod.snd (outsAt1_C V c t h0 h7)
    rw [e2]; dsimp only; rw [sout1_C_0_eq]
  show (cfg1.win 6).cut (grid1.coords t) ((dat1 V c).after 6 t) = _
  rw [after1_6]
  have e1 : (outsAt1 V c t.val t.isLt).1 = _ := congrArg Prod.fst (outsAt1_C V c t h0 h7)
  rw [e1]; dsimp only
  rw [out1_C_6_eq, ← hs]
  funext j
  obtain ⟨p, q, rfl⟩ : ∃ (p : Fin 1024) (q : Fin 1024), j = ix2 p q := ⟨j 0, j 1, eq_ix2 j⟩
  have hp := p.isLt; have hq := q.isLt
  have hR : t.val / 32 * 1024 + p.val < 4096 := by omega
  have hC : t.val / 8 % 4 * 1024 + q.val < 4096 := by omega
  have hemb : ((cfg1.win 6).blk t).view.emb (ix2 p q) = (ix2 ⟨t.val / 32 * 1024 + p.val, hR⟩ ⟨t.val / 8 % 4 * 1024 + q.val, hC⟩ : S4096x4096.Idx) := by
    funext a; apply Fin.ext
    match a with
    | ⟨0, _⟩ => show win1_6.index t (0 : Fin 2) * 1024 + 1 * p.val = t.val / 32 * 1024 + p.val; omega
    | ⟨1, _⟩ => show win1_6.index t (1 : Fin 2) * 1024 + 1 * q.val = t.val / 8 % 4 * 1024 + q.val; omega
  show k1_pay3 (F := Ideal) (iblk1 V c 3 t) (iblk1 V c 4 t) (outsAt1 V c t.val t.isLt).2 (iblk1 V c 5 t) (ix2 p q)
    = GK V c (((cfg1.win 6).blk t).view.emb (ix2 p q))
  rw [hemb]
  refine (Cert.KernelIdeal.Pay.k1_pay3_apply _ _ _ _ p q).trans ?_
  unfold GK
  rw [GKv_ix2]
  rw [acc_at V c p q t.val t.isLt, h8, blk5 V c t q hC]
  refine congrArg (· + _) ?_
  refine congrArg₂ (· + ·) ?_ (Finset.sum_congr rfl fun r _ => ?_)
  · exact (Cert.Algebra.sum_range_eq_sum_fin _ 8).trans
      (Cert.Algebra.sum_8_512_nat (fun kf => tm (V c main_v0) (V c main_arg1) (V c main_v2) (t.val / 32 * 1024 + p.val) (t.val / 8 % 4 * 1024 + q.val) kf))
  · rw [blk3 V c t p r hR, blk4 V c t q r hC]

/-- An index of the array is in point t's tile iff each coordinate is in the tile's range on its axis. -/
theorem mem_blkK (t : Fin cfg1.N) (i : S4096x4096.Idx) :
    i ∈ ((cfg1.win 6).blk t).view.set ↔ ∀ a : Fin 2, win1_6.index t a * S1024x1024.size a ≤ (i a).val ∧ (i a).val < win1_6.index t a * S1024x1024.size a + S1024x1024.size a := by
  show i ∈ ((View.whole main_v6).slice (win1_6.rect t)).set ↔ _
  rw [View.set_slice_whole, Rect.mem_set_unit]
  exact Iff.rfl

/-- Every index lies in the tile of the point 32·(row / 1024) + 8·(column / 1024) + 7, which writes its tile back. -/
theorem coverK (i : S4096x4096.Idx) : ∃ t : Fin cfg1.N, (cfg1.win 6).flush t = true ∧ i ∈ ((cfg1.win 6).blk t).view.set := by
  have hi0 : (i 0).val < 4096 := (i 0).isLt
  have hi1 : (i 1).val < 4096 := (i 1).isLt
  obtain ⟨n, hnd⟩ : ∃ n : ℕ, n = 32 * ((i 0).val / 1024) + 8 * ((i 1).val / 1024) + 7 := ⟨_, rfl⟩
  have hn : n < cfg1.N := by rw [show cfg1.N = 128 from N_1]; omega
  refine ⟨⟨n, hn⟩, (flush1_6 ⟨n, hn⟩).mpr (by show n % 8 = 7; omega), ?_⟩
  rw [mem_blkK]
  obtain ⟨e00, e01, e10, e11, e20, e21, e30, e31, e40, e41, e50, e51, e60, e61⟩ := idx1 ⟨n, hn⟩
  intro a
  match a with
  | ⟨0, _⟩ =>
    show win1_6.index ⟨n, hn⟩ (0 : Fin 2) * 1024 ≤ (i 0).val ∧ (i 0).val < win1_6.index ⟨n, hn⟩ (0 : Fin 2) * 1024 + 1024
    rw [e60]; show n / 32 * 1024 ≤ (i 0).val ∧ (i 0).val < n / 32 * 1024 + 1024; omega
  | ⟨1, _⟩ =>
    show win1_6.index ⟨n, hn⟩ (1 : Fin 2) * 1024 ≤ (i 1).val ∧ (i 1).val < win1_6.index ⟨n, hn⟩ (1 : Fin 2) * 1024 + 1024
    rw [e61]; show n / 8 % 4 * 1024 ≤ (i 1).val ∧ (i 1).val < n / 8 % 4 * 1024 + 1024; omega

/-- THE OUTPUT ARRAY after the region is `GK` of the arrays it was entered from. -/
theorem mm_final (c : Dev nD) : (dat1 V c).arrAt 6 cfg1.N = GK V c :=
  (dat1 V c).arrAt_eq_of_cover 6 (GK V c) (fun t hf => flushedK_eq V c t hf) coverK

end Cert.KernelIdeal.Val

end
-- ==== Proof.KValHost.lean ====
/-
  The host operations between the two kernel launches, read at an index, for any contents W of the buffers before them.

  * The per-group scales ws [4096, 64] are repeated 64 times along a new last axis and flattened to [4096, 4096]:
    flat column i of row o is entry (o, i / 64, i % 64) of the repeated array, whose value is ws[o, i / 64].
  * The down-projection x · ldᵀ: ld [32, 4096] is transposed to [4096, 32] and contracted with x over the 4096 input
    columns, so entry (t, r) is Σ_i x[t,i] · ld[r,i].
  * The bias b [4096] is viewed as one row [1, 4096]: entry (0, o) is b[o].
-/
import proofs.«149985_j87849261072827_1_alg».proof.Proof.Gen.KernelIdeal.Launch
import proofs.«149985_j87849261072827_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.TcCoe Idealize.SL.Sem
  Idealize.ShloMosaic.ValueIdx

/-! ## The repeated scales -/

/-- The scales repeated along a new last axis and flattened, at (o, i): the scale of row o, group i / 64. -/
theorem repeat_apply (x : S4096x64.Idx → EReal) (o i : Fin 4096) :
    shapeCast S4096x4096 (broadcastInDim S4096x64x64 ![0, 1] bcast_S4096x64_S4096x64x64_0_1 x) shapeCasts_S4096x64x64_S4096x4096
        (ix2 o i)
      = x (ix2 o (Cert.Spec.grp i)) := by
  have ho : o.val < 4096 := o.isLt
  have hi : i.val < 4096 := i.isLt
  generalize hy : broadcastInDim S4096x64x64 ![0, 1] bcast_S4096x64_S4096x64x64_0_1 x = y
  refine (shapeCast_apply y shapeCasts_S4096x64x64_S4096x4096 (ix2 o i)
    (ix3 o (Cert.Spec.grp i) (⟨i.val % 64, Nat.mod_lt _ (by decide)⟩ : Fin 64)) ?_).trans ?_
  · rewrite [Shape.rowMajor_val_three, Shape.rowMajor_val_two]
    show (o.val * 64 + i.val / 64) * 64 + i.val % 64 = o.val * 4096 + i.val
    omega
  · rw [← hy]
    exact broadcastInDim_apply _ bcast_S4096x64_S4096x64x64_0_1 x _ (ix2 o (Cert.Spec.grp i)) (fun a => match a with
      | ⟨0, _⟩ => by show o.val = if (4096 : Nat) = 1 then 0 else o.val; rw [if_neg (by decide)]
      | ⟨1, _⟩ => by show i.val / 64 = if (64 : Nat) = 1 then 0 else i.val / 64; rw [if_neg (by decide)])

/-- After the host operations the flattened-scales buffer holds, at (o, i), the scale ws[o, i / 64]. -/
theorem h2 (W : Valuation τ sig (Elt Ideal)) :
    (StableHlo.after (hostOps1 (F := Ideal)) W (Proc.devRef .tc main_v2) : S4096x4096.Idx → EReal)
      = fun j => (W (Proc.devRef .tc main_arg2)) (ix2 (j 0) (Cert.Spec.grp (j 1))) := by
  have e : (StableHlo.after (hostOps1 (F := Ideal)) W (Proc.devRef .tc main_v2) : S4096x4096.Idx → EReal)
      = shapeCast S4096x4096 (broadcastInDim S4096x64x64 ![0, 1] bcast_S4096x64_S4096x64x64_0_1
          (W (Proc.devRef .tc main_arg2) : S4096x64.Idx → EReal)) shapeCasts_S4096x64x64_S4096x4096 := by
    after_results <;> rfl
  rw [e]
  funext j
  obtain ⟨o, i, rfl⟩ : ∃ (o i : Fin 4096), j = ix2 o i := ⟨j 0, j 1, eq_ix2 j⟩
  exact repeat_apply _ o i

/-! ## The down-projection -/

theorem lhs_0 (i : S4096x32.Idx) (q : dot_S4096x4096_S4096x32_S4096x32_1_0_0_1_n_n.contr.Idx) :
    (dot_S4096x4096_S4096x32_S4096x32_1_0_0_1_n_n.lhsIdx i q 0).val = (i 0).val := by
  unfold DotDims.lhsIdx
  rw [dif_neg (show ¬(0 : Fin S4096x4096.rank) ∈ dot_S4096x4096_S4096x32_S4096x32_1_0_0_1_n_n.lhsBatch by decide),
    dif_pos (show (0 : Fin S4096x4096.rank) ∈ dot_S4096x4096_S4096x32_S4096x32_1_0_0_1_n_n.lhsNonContracting by decide)]
  rfl
theorem lhs_1 (i : S4096x32.Idx) (q : dot_S4096x4096_S4096x32_S4096x32_1_0_0_1_n_n.contr.Idx) :
    (dot_S4096x4096_S4096x32_S4096x32_1_0_0_1_n_n.lhsIdx i q 1).val = (q ⟨0, by decide⟩).val :=
  dot_S4096x4096_S4096x32_S4096x32_1_0_0_1_n_n.lhsIdx_val_of_single rfl i q
theorem rhs_0 (i : S4096x32.Idx) (q : dot_S4096x4096_S4096x32_S4096x32_1_0_0_1_n_n.contr.Idx) :
    (dot_S4096x4096_S4096x32_S4096x32_1_0_0_1_n_n.rhsIdx i q 0).val = (q ⟨0, by decide⟩).val :=
  dot_S4096x4096_S4096x32_S4096x32_1_0_0_1_n_n.rhsIdx_val_of_single rfl i q
theorem rhs_1 (i : S4096x32.Idx) (q : dot_S4096x4096_S4096x32_S4096x32_1_0_0_1_n_n.contr.Idx) :
    (dot_S4096x4096_S4096x32_S4096x32_1_0_0_1_n_n.rhsIdx i q 1).val = (i 1).val := by
  unfold DotDims.rhsIdx
  rw [dif_neg (show ¬(1 : Fin S4096x32.rank) ∈ dot_S4096x4096_S4096x32_S4096x32_1_0_0_1_n_n.rhsBatch by decide),
    dif_pos (show (1 : Fin S4096x32.rank) ∈ dot_S4096x4096_S4096x32_S4096x32_1_0_0_1_n_n.rhsNonContracting by decide)]
  rfl

/-- The product of x with the transposed down matrix, at (t, r): Σ_i x[t,i] · ld[r,i]. -/
theorem down_apply (x0 : S4096x4096.Idx → EReal) (x3 : S32x4096.Idx → EReal) (t : Fin 4096) (r : Fin 32) :
    Host.dotGeneral (F := Ideal) (φ₁ := .f32) (φ₂ := .f32) dot_S4096x4096_S4096x32_S4096x32_1_0_0_1_n_n none x0
        (transpose S4096x32 [1, 0] x3 transposes_S32x4096_S4096x32_1_0) (ix2 t r)
      = Cert.Spec.downAt x0 x3 t r := by
  generalize hy : transpose S4096x32 [1, 0] x3 transposes_S32x4096_S4096x32_1_0 = y
  simp only [Host.dotGeneral]
  rw [Ideal.dotGeneral_apply, ← Equiv.sum_comp (contrEquiv1 dot_S4096x4096_S4096x32_S4096x32_1_0_0_1_n_n 4096 rfl rfl).symm]
  unfold Cert.Spec.downAt
  refine Finset.sum_congr rfl fun k _ => ?_
  have hk := contrEquiv1_symm_val dot_S4096x4096_S4096x32_S4096x32_1_0_0_1_n_n 4096 rfl rfl k
  have el : dot_S4096x4096_S4096x32_S4096x32_1_0_0_1_n_n.lhsIdx (ix2 t r) ((contrEquiv1 dot_S4096x4096_S4096x32_S4096x32_1_0_0_1_n_n 4096 rfl rfl).symm k) = ix2 t k := funext fun a => Fin.ext (by
    match a with
    | ⟨0, _⟩ => exact lhs_0 _ _
    | ⟨1, _⟩ => exact (lhs_1 _ _).trans hk)
  have er : dot_S4096x4096_S4096x32_S4096x32_1_0_0_1_n_n.rhsIdx (ix2 t r) ((contrEquiv1 dot_S4096x4096_S4096x32_S4096x32_1_0_0_1_n_n 4096 rfl rfl).symm k) = ix2 k r := funext fun a => Fin.ext (by
    match a with
    | ⟨0, _⟩ => exact (rhs_0 _ _).trans hk
    | ⟨1, _⟩ => exact rhs_1 _ _)
  rw [el, er, ← hy]
  exact congrArg (x0 (ix2 t k) * ·) (transpose_ix2_apply x3 transposes_S32x4096_S4096x32_1_0 k r)

/-- After the host operations the down-projection buffer holds, at (t, r), Σ_i x[t,i] · ld[r,i]. -/
theorem h4 (W : Valuation τ sig (Elt Ideal)) :
    (StableHlo.after (hostOps1 (F := Ideal)) W (Proc.devRef .tc main_v4) : S4096x32.Idx → EReal)
      = fun j => Cert.Spec.downAt (W (Proc.devRef .tc main_arg0)) (W (Proc.devRef .tc main_arg3)) (j 0) (j 1) := by
  have e : (StableHlo.after (hostOps1 (F := Ideal)) W (Proc.devRef .tc main_v4) : S4096x32.Idx → EReal)
      = Host.dotGeneral (F := Ideal) (φ₁ := .f32) (φ₂ := .f32) dot_S4096x4096_S4096x32_S4096x32_1_0_0_1_n_n none (W (Proc.devRef .tc main_arg0) : S4096x4096.Idx → EReal)
          (transpose S4096x32 [1, 0] (W (Proc.devRef .tc main_arg3) : S32x4096.Idx → EReal) transposes_S32x4096_S4096x32_1_0) := by
    after_results <;> rfl
  rw [e]
  funext j
  obtain ⟨t, r, rfl⟩ : ∃ (t : Fin 4096) (r : Fin 32), j = ix2 t r := ⟨j 0, j 1, eq_ix2 j⟩
  exact down_apply _ _ t r

/-! ## The bias as a row -/

/-- After the host operations the bias-row buffer holds, at (0, o), b[o]. -/
theorem h5 (W : Valuation τ sig (Elt Ideal)) :
    (StableHlo.after (hostOps1 (F := Ideal)) W (Proc.devRef .tc main_v5) : S1x4096.Idx → EReal)
      = fun j => (W (Proc.devRef .tc main_arg5)) (ix1 (j 1)) := by
  have e : (StableHlo.after (hostOps1 (F := Ideal)) W (Proc.devRef .tc main_v5) : S1x4096.Idx → EReal)
      = shapeCast S1x4096 (W (Proc.devRef .tc main_arg5) : S4096.Idx → EReal) shapeCasts_S4096_S1x4096 := by
    after_results <;> rfl
  rw [e]
  funext j
  obtain ⟨z, o, rfl⟩ : ∃ (z : Fin 1) (o : Fin 4096), j = ix2 z o := ⟨j 0, j 1, eq_ix2 j⟩
  have hz : z.val = 0 := by have := z.isLt; omega
  refine shapeCast_apply _ shapeCasts_S4096_S1x4096 (ix2 z o) (ix1 o) ?_
  rewrite [Shape.rowMajor_val_one, Shape.rowMajor_val_two]
  show o.val = z.val * 4096 + o.val
  rw [hz]; omega

end Cert.KernelIdeal.Val

end
-- ==== Proof.PayQuant.lean ====
/-
  The quantization kernel's payload read at one entry (p, q) of a 256 × 4096 block of rows.

  Row p's largest magnitude is the maximum, taken from −∞, of max (a, −a) over the row's 4096
  entries; it is cast to a one-column matrix, clamped below by the small constant, divided by 7 —
  the row's step —, and that column is laid along the row again. The entry is divided by the step,
  rounded to the nearest integer with ties to even, clamped to [−8, 7] and multiplied by the step.
  Narrowing to sixteen bits is the identity on extended reals. So the entry is the row's fake
  quantization at q, a function of row p alone.
-/
import proofs.«149985_j87849261072827_1_alg».proof.Proof.Gen.KernelIdeal.Skeleton
import proofs.«149985_j87849261072827_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.SL.Sem Idealize.ShloMosaic.ValueIdx Cert.KernelIdeal Cert.KernelIdeal.Gen

/-- A vector cast to one column, [a] → [a, 1], reads at (i, u) the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column laid along every column position, [a, 1] → [a, b]: at (i, c) the operand's row i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The maximum over each row of a 256 × 4096 matrix, from the accumulator −∞: at row p the fold of
    `max` over the row's 4096 entries. -/
theorem rowmax_apply (src : FVec Ideal S256x4096 .f32) (h : S256x4096.Reduces [1] S256) (hφ : FKind.Formats .f32)
    (hacc : (0xFF800000#32 : BitVec 32) = FKind.maximumf.neutral .f32 hφ) (p : Fin 256) :
    multiReduction .maximumf [1] S256 src 0xFF800000#32 h hφ hacc (ix1 p)
      = (Finset.univ : Finset (Fin 4096)).fold max (Ideal.ofBits .f32 0xFF800000#32) (fun j => src (ix2 p j)) := by
  refine (Ideal.multiReduction_maximumf_single src 0xFF800000#32 h hφ hacc (ix1 p)).trans ?_
  refine congrArg (fun f => (Finset.univ : Finset (Fin 4096)).fold max (Ideal.ofBits .f32 0xFF800000#32) f) ?_
  funext k
  refine congrArg src (funext fun c => Fin.ext ?_)
  match c with
  | ⟨0, _⟩ => rfl
  | ⟨1, _⟩ => rfl

/-- The column of row steps the kernel computes: max (row maximum of |·|, 1e-6) / 7. -/
def stepVec (v0 : Vec Ideal S256x4096 .f32) : FVec Ideal S256x1 .f32 :=
  divf (maximumf (shapeCast S256x1 (multiReduction .maximumf [1] S256 (absf v0) 0xFF800000#32
      reduces_S256x4096_S256 (.inl rfl) rfl) shapeCasts_S256_S256x1)
    (broadcast S256x1 (Scalar.ofBits .f32 0x358637BD#32))) (broadcast S256x1 (Scalar.ofBits .f32 0x40E00000#32))

/-- Row p of that column is the specification's step of row p. -/
theorem stepVec_apply (v0 : Vec Ideal S256x4096 .f32) (p : Fin 256) (u : Fin 1) :
    stepVec v0 (ix2 p u) = Cert.Spec.step (fun j => v0 (ix2 p j)) := by
  have h1 := shapeCast_a_a1_apply (multiReduction (F := Ideal) .maximumf [1] S256 (absf v0) 0xFF800000#32
    reduces_S256x4096_S256 (.inl rfl) rfl) shapeCasts_S256_S256x1 p u
  have h2 := rowmax_apply (absf v0) reduces_S256x4096_S256 (.inl rfl) rfl p
  unfold stepVec
  rw [divf_apply, maximumf_apply, h1, h2]
  unfold Cert.Spec.step Cert.Spec.amax
  rfl

/-- The quantized block at (p, q) is row p's fake quantization at q. -/
theorem k0_pay1_apply (v0 : Vec Ideal S256x4096 .f32) (p : Fin 256) (q : Fin 4096) :
    Gen.k0_pay1 (F := Ideal) v0 (ix2 p q) = Cert.Spec.qrow (fun j => v0 (ix2 p j)) q := by
  have hb : broadcastTo S256x4096 (stepVec v0) broadcasts_S256x1_S256x4096 (ix2 p q)
      = Cert.Spec.step (fun j => v0 (ix2 p j)) :=
    (broadcastTo_a1_ab_apply (stepVec v0) broadcasts_S256x1_S256x4096 p q).trans (stepVec_apply v0 p 0)
  show min (Ideal.ofBits .f32 0x40E00000#32) (max (Ideal.ofBits .f32 0xC1000000#32)
      (Ideal.liftRound Ideal.roundHalfEven (Ideal.div (v0 (ix2 p q))
        (broadcastTo S256x4096 (stepVec v0) broadcasts_S256x1_S256x4096 (ix2 p q)))))
    * broadcastTo S256x4096 (stepVec v0) broadcasts_S256x1_S256x4096 (ix2 p q) = _
  rw [hb]
  rfl

end Cert.KernelIdeal.Pay

end
-- ==== Proof.KValQuant.lean ====
/-
  The row-quantization launch as one array: after its sixteen grid points the output array holds, at
  (r, i), the fake quantization of row r of the input at column i.

  Point t loads rows 256·t … 256·t + 255 of the input (all 4096 columns), and writes back the same rows of
  the output; the body's stored block at (p, q) is a function of row p of the loaded block alone — that row's
  fake quantization at q. A row of the block is a row of the array, so the block written back at point t is
  block t of the array-wide function; the sixteen blocks tile the 4096 rows (row r lies in the block of point
  r / 256), so the output array is that function everywhere.
-/
import proofs.«149985_j87849261072827_1_alg».proof.Proof.FrQuant
import proofs.«149985_j87849261072827_1_alg».proof.Proof.PayQuant
import proofs.«149985_j87849261072827_1_alg».proof.Proof.Spec
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The quantized array as one function of the input array: entry (r, i) is row r's fake quantization at i. -/
abbrev Gq (x : S4096x4096.Idx → EReal) : S4096x4096.Idx → EReal :=
  fun j => Cert.Spec.qrow (Cert.Spec.rowOf x (j 0)) (j 1)

/-- Both windows' blocks at point t are block row t, block column 0 (decided over the sixteen points). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The payload of a block whose rows are rows T·256 + p of an array: at (p, q) that array row's fake
    quantization at q. -/
theorem pay_block (x0 : Vec Ideal S256x4096 .f32) (x : S4096x4096.Idx → EReal) (T : ℕ) (hT : T < 16)
    (hx : ∀ (p : Fin 256) (i : Fin 4096), x0 (ix2 p i) = x (ix2 (⟨T * 256 + p.val, by omega⟩ : Fin 4096) i))
    (p : Fin 256) (q : Fin 4096) :
    Gen.k0_pay1 (F := Ideal) x0 (ix2 p q)
      = Cert.Spec.qrow (Cert.Spec.rowOf x (⟨T * 256 + p.val, by omega⟩ : Fin 4096)) q :=
  (Pay.k0_pay1_apply x0 p q).trans (congrArg (fun r => Cert.Spec.qrow r q) (funext fun i => hx p i))

/-- The input block at point t, row p, is row t·256 + p of the input array. -/
theorem iblk_row (c : Dev nD) (t : Fin cfg0.N) (ht : t.val < 16) (p : Fin 256) (i : Fin 4096) :
    (iblk0 V c 0 t : Vec Ideal S256x4096 .f32) (ix2 p i)
      = (V c main_arg0 : S4096x4096.Idx → EReal) (ix2 (⟨t.val * 256 + p.val, by omega⟩ : Fin 4096) i) := by
  obtain ⟨e0, e1, e2, e3⟩ := idx_facts t
  unfold iblk0
  rw [View.read_apply]
  show (V c main_arg0 : S4096x4096.Idx → EReal) (((cfg0.win 0).blk t).view.emb (ix2 p i)) = _
  refine congrArg (V c main_arg0 : S4096x4096.Idx → EReal) (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * i.val = i.val; omega

/-- What point t stores, at (p, q) of its block, is the array-wide function at the block's place in the array. -/
theorem stored_at (c : Dev nD) (t : Fin cfg0.N) (p : Fin 256) (q : Fin 4096) :
    Gen.k0_pay1 (F := Ideal) (iblk0 V c 0 t) (ix2 p q)
      = Gq (V c main_arg0) (((cfg0.win 1).blk t).view.emb (ix2 p q)) := by
  have hN : cfg0.N = 16 := N_0
  have ht : t.val < 16 := by have := t.isLt; omega
  obtain ⟨e0, e1, e2, e3⟩ := idx_facts t
  refine (pay_block (iblk0 V c 0 t) (V c main_arg0) t.val ht (fun p' i => iblk_row V c t ht p' i) p q).trans ?_
  have h0 : (((cfg0.win 1).blk t).view.emb (ix2 p q)) 0 = (⟨t.val * 256 + p.val, by omega⟩ : Fin 4096) :=
    Fin.ext (by show win0_1.index t (0 : Fin 2) * 256 + 1 * p.val = t.val * 256 + p.val; omega)
  have h1 : (((cfg0.win 1).blk t).view.emb (ix2 p q)) 1 = q :=
    Fin.ext (by show win0_1.index t (1 : Fin 2) * 4096 + 1 * q.val = q.val; omega)
  show _ = Cert.Spec.qrow (Cert.Spec.rowOf (V c main_arg0) ((((cfg0.win 1).blk t).view.emb (ix2 p q)) 0))
    ((((cfg0.win 1).blk t).view.emb (ix2 p q)) 1)
  rw [h0, h1]

/-- What point t writes back is block t of the array-wide function of the input array. -/
theorem flushed_eq (c : Dev nD) (t : Fin cfg0.N) :
    (dat0 V c).flushed 1 t = ((cfg0.win 1).blk t).view.read (Elt Ideal) (Gq (V c main_arg0)) := by
  show (cfg0.win 1).cut (grid0.coords t) ((dat0 V c).after 1 t) = _
  rw [after0_1]
  unfold out0_1
  rw [View.canon_unit_zero hz]
  simp only [View.ld_unit_zero (S := S256x4096) hz]
  have key : ∀ j : S256x4096.Idx, Gen.k0_pay1 (F := Ideal) (iblk0 V c 0 t) j
      = Gq (V c main_arg0) (((cfg0.win 1).blk t).view.emb j) := fun j => by
    obtain ⟨p, q, rfl⟩ : ∃ (p : Fin 256) (q : Fin 4096), j = ix2 p q := ⟨j 0, j 1, eq_ix2 j⟩
    exact stored_at V c t p q
  funext j
  exact key j

/-- An index of the output array is in point t's block iff each coordinate is in the block's range. -/
theorem mem_blk (t : Fin cfg0.N) (i : S4096x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- Every index of the output array is in the block of the point its row falls to: row r is written by point r / 256. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  have hlt : (i 0).val / 256 < cfg0.N := by rw [hN]; omega
  obtain ⟨e0, e1, e2, e3⟩ := idx_facts ⟨(i 0).val / 256, hlt⟩
  have e2' : win0_1.index ⟨(i 0).val / 256, hlt⟩ (0 : Fin 2) = (i 0).val / 256 := e2
  refine ⟨⟨(i 0).val / 256, hlt⟩, flush0_1 _, ?_⟩
  rw [mem_blk]
  intro a
  match a with
  | ⟨0, _⟩ =>
    show win0_1.index ⟨(i 0).val / 256, hlt⟩ (0 : Fin 2) * 256 ≤ (i 0).val
      ∧ (i 0).val < win0_1.index ⟨(i 0).val / 256, hlt⟩ (0 : Fin 2) * 256 + 256
    omega
  | ⟨1, _⟩ =>
    show win0_1.index ⟨(i 0).val / 256, hlt⟩ (1 : Fin 2) * 4096 ≤ (i 1).val
      ∧ (i 1).val < win0_1.index ⟨(i 0).val / 256, hlt⟩ (1 : Fin 2) * 4096 + 4096
    omega

/-- The output array after the launch: at (r, i) the fake quantization of input row r at column i. -/
theorem quant_final (c : Dev nD) :
    (Cert.KernelIdeal.Fr.dat0 V c).arrAt 1 cfg0.N
      = fun j => Cert.Spec.qrow (Cert.Spec.rowOf (V c main_arg0) (j 0)) (j 1) :=
  (dat0 V c).arrAt_eq_of_cover 1 (Gq (V c main_arg0)) (fun t _ => flushed_eq V c t) cover

end Cert.KernelIdeal.Val

end
-- ==== Proof.KValBridge.lean ====
/-
  The contents of the buffers when the matrix-product launch is entered, as functions of the launch memory.

  Between the launch memory and that point lie the row-quantization launch, which writes only its output array,
  and five host operations, which write only their own result buffers. So: the quantized activations are the
  per-row fake quantization of the input x; the weight codes and the up-projection are as launched; the scales
  buffer holds ws[o, i / 64] at (o, i); the down-projection buffer holds Σ_i x[t,i] · ld[r,i] at (t, r), with x as
  launched, since the first launch only reads x; and the bias row holds b[o] at (0, o).
-/
import proofs.«149985_j87849261072827_1_alg».proof.Proof.FrRun
import proofs.«149985_j87849261072827_1_alg».proof.Proof.KValHost
import proofs.«149985_j87849261072827_1_alg».proof.Proof.KValQuant
import proofs.«149985_j87849261072827_1_alg».proof.Proof.Spec
import proofs.«149985_j87849261072827_1_alg».proof.Proof.Gen.KernelIdeal.Regions

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- After the first launch the input x is as launched: the launch only reads it. -/
theorem W1_x (c : Dev nD) : Fr.W1 m ρ c (Proc.devRef .tc main_arg0) = m ((c : Thread nD τ).loc main_arg0) :=
  ((Fr.W1_arr m ρ c 0).trans (((Fr.dat0 (Fr.V0 m ρ) c).arrAt_in 0 rfl _).trans (Fr.A_eq0 (Fr.V0 m ρ) c 0))).trans rfl

/-- After the first launch the scales are as launched. -/
theorem W1_ws (c : Dev nD) : Fr.W1 m ρ c (Proc.devRef .tc main_arg2) = m ((c : Thread nD τ).loc main_arg2) :=
  (Fr.W1_of_ne m ρ c main_arg2 (by decide)).trans rfl

/-- After the first launch the down matrix is as launched. -/
theorem W1_ld (c : Dev nD) : Fr.W1 m ρ c (Proc.devRef .tc main_arg3) = m ((c : Thread nD τ).loc main_arg3) :=
  (Fr.W1_of_ne m ρ c main_arg3 (by decide)).trans rfl

/-- After the first launch the bias is as launched. -/
theorem W1_b (c : Dev nD) : Fr.W1 m ρ c (Proc.devRef .tc main_arg5) = m ((c : Thread nD τ).loc main_arg5) :=
  (Fr.W1_of_ne m ρ c main_arg5 (by decide)).trans rfl

/-- The quantized activations at the second launch's entry: row r of x fake-quantized, at column i. -/
theorem b0 (c : Dev nD) :
    (Fr.V2 m ρ c main_v0 : S4096x4096.Idx → EReal)
      = fun j => Cert.Spec.qrow (Cert.Spec.rowOf (m ((c : Thread nD τ).loc main_arg0)) (j 0)) (j 1) :=
  (StableHlo.after_of_writes_sub hostOps1 _ hostOps1_writes (by decide)).trans
    ((Fr.W1_arr m ρ c 1).trans (quant_final (Fr.V0 m ρ) c))

/-- The weight codes at the second launch's entry are as launched. -/
theorem b1 (c : Dev nD) : Fr.V2 m ρ c main_arg1 = m ((c : Thread nD τ).loc main_arg1) :=
  (StableHlo.after_of_writes_sub hostOps1 _ hostOps1_writes (by decide)).trans
    ((Fr.W1_of_ne m ρ c main_arg1 (by decide)).trans rfl)

/-- The scales buffer at the second launch's entry: ws[o, i / 64] at (o, i). -/
theorem b2 (c : Dev nD) :
    (Fr.V2 m ρ c main_v2 : S4096x4096.Idx → EReal)
      = fun j => (m ((c : Thread nD τ).loc main_arg2)) (ix2 (j 0) (Cert.Spec.grp (j 1))) := by
  refine (h2 (Fr.W1 m ρ c)).trans ?_
  rw [W1_ws m ρ c]

/-- The down-projection buffer at the second launch's entry: Σ_i x[t,i] · ld[r,i] at (t, r). -/
theorem b3 (c : Dev nD) :
    (Fr.V2 m ρ c main_v4 : S4096x32.Idx → EReal)
      = fun j => Cert.Spec.downAt (m ((c : Thread nD τ).loc main_arg0)) (m ((c : Thread nD τ).loc main_arg3)) (j 0) (j 1) := by
  refine (h4 (Fr.W1 m ρ c)).trans ?_
  rw [W1_x m ρ c, W1_ld m ρ c]

/-- The up-projection at the second launch's entry is as launched. -/
theorem b4 (c : Dev nD) : Fr.V2 m ρ c main_arg4 = m ((c : Thread nD τ).loc main_arg4) :=
  (StableHlo.after_of_writes_sub hostOps1 _ hostOps1_writes (by decide)).trans
    ((Fr.W1_of_ne m ρ c main_arg4 (by decide)).trans rfl)

/-- The bias row at the second launch's entry: b[o] at (0, o). -/
theorem b5 (c : Dev nD) :
    (Fr.V2 m ρ c main_v5 : S1x4096.Idx → EReal)
      = fun j => (m ((c : Thread nD τ).loc main_arg5)) (ix1 (j 1)) := by
  refine (h5 (Fr.W1 m ρ c)).trans ?_
  rw [W1_b m ρ c]

end Cert.KernelIdeal.Val

end
-- ==== Proof.KValClose.lean ====
/-
  The closing step: the kernel's result assembled from its staged arrays is the specified function.

  At (t, o) the kernel holds  ( Σ_k xq[t,k] · (q[o,k] · wsf[o,k])  +  Σ_r tmp[t,r] · lu[o,r] )  +  brow[0,o],
  the first sum over all 4096 input columns. With xq the quantized activations, wsf[o,k] = ws[o, k / 64],
  tmp the down-projection and brow[0,o] = b[o], this is term by term the specification's entry at (t, o).
-/
import proofs.«149985_j87849261072827_1_alg».proof.Proof.KValAcc
import proofs.«149985_j87849261072827_1_alg».proof.Proof.Spec

noncomputable section

open scoped BigOperators

namespace Cert.KernelIdeal.Val

open Cert.KernelIdeal Idealize.ShloMosaic Idealize.ShloMosaic.ValueIdx

/-- The kernel's accumulated result — the main product summed over all 4096 input columns, plus the low-rank product,
    plus the bias row — is the specified function, once the four staged arrays are what the earlier stages make them:
    the quantized activations, the scales repeated per column, the down-projection, and the bias as a row. -/
theorem close_G (x : S4096x4096.Idx → EReal) (qw : S4096x4096.Idx → BitVec 32) (ws : S4096x64.Idx → EReal)
    (ld : S32x4096.Idx → EReal) (lu : S4096x32.Idx → EReal) (b : S4096.Idx → EReal)
    (XQa : S4096x4096.Idx → EReal) (WSF : S4096x4096.Idx → EReal) (TMP : S4096x32.Idx → EReal) (B2 : S1x4096.Idx → EReal)
    (hXQ : XQa = fun j => Cert.Spec.qrow (Cert.Spec.rowOf x (j 0)) (j 1))
    (hWSF : WSF = fun j => ws (ix2 (j 0) (Cert.Spec.grp (j 1))))
    (hTMP : TMP = fun j => Cert.Spec.downAt x ld (j 0) (j 1))
    (hB2 : B2 = fun j => b (ix1 (j 1))) :
    (fun j : S4096x4096.Idx => ((∑ kf : Fin 4096, tm XQa qw WSF (j 0).val (j 1).val kf.val)
        + ∑ r : Fin 32, TMP (ix2 (j 0) r) * lu (ix2 (j 1) r)) + B2 (ix2 (0 : Fin 1) (j 1)))
      = Cert.Spec.G x qw ws ld lu b := by
  subst hXQ hWSF hTMP hB2
  funext j
  obtain ⟨t, o, rfl⟩ : ∃ (t o : Fin 4096), j = ix2 t o := ⟨j 0, j 1, eq_ix2 j⟩
  rw [Cert.Spec.G_ix2]
  unfold Cert.Spec.outAt Cert.Spec.mainAt Cert.Spec.loraAt
  have hm : (∑ kf : Fin 4096, tm (fun j => Cert.Spec.qrow (Cert.Spec.rowOf x (j 0)) (j 1)) qw
        (fun j => ws (ix2 (j 0) (Cert.Spec.grp (j 1)))) t.val o.val kf.val)
      = ∑ i : Fin 4096, Cert.Spec.qrow (Cert.Spec.rowOf x t) i * Cert.Spec.deq (qw (ix2 o i)) (ws (ix2 o (Cert.Spec.grp i))) := by
    refine Finset.sum_congr rfl fun kf _ => ?_
    unfold tm
    rw [aN_eq _ _ _ _ t.isLt kf.isLt, aN_eq _ _ _ _ o.isLt kf.isLt, aN_eq _ _ _ _ o.isLt kf.isLt]
  exact congrArg (fun s => (s + ∑ r : Fin 32, Cert.Spec.downAt x ld t r * lu (ix2 o r)) + b (ix1 o)) hm

end Cert.KernelIdeal.Val

end
-- ==== Proof.KValRun.lean ====
/- The idealized kernel program's run read as a value: the result array ends holding the specified function of the six
   argument arrays as launched. The matrix-product region leaves the full contraction + rank-32 product + bias of the
   arrays it is entered from; those are the quantized rows of x (left by the first region), the codes, the scales repeated
   along their groups, the down-projection of x, the up-projection and the bias as a row (left by the host operations);
   substituting them gives the specification. -/
import proofs.«149985_j87849261072827_1_alg».proof.Proof.FrRun
import proofs.«149985_j87849261072827_1_alg».proof.Proof.KValOut
import proofs.«149985_j87849261072827_1_alg».proof.Proof.KValBridge
import proofs.«149985_j87849261072827_1_alg».proof.Proof.KValClose

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The result buffer at the last boundary is the specified function of the argument arrays as launched. -/
theorem result_eq (c : Dev nD) : W3 m ρ c (Proc.devRef .tc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W3_arr m ρ c 6).trans ?_
  rw [mm_final (Fr.V2 m ρ) c]
  unfold GK GKv
  rw [b1 m ρ c, b4 m ρ c]
  exact close_G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (Fr.V2 m ρ c main_v0) (Fr.V2 m ρ c main_v2) (Fr.V2 m ρ c main_v4) (Fr.V2 m ρ c main_v5) (b0 m ρ c) (b2 m ρ c) (b3 m ρ c) (b5 m ρ c)

/-- Every weakly fair execution of the idealized kernel program terminates, nothing faulting; the result array is the
    specified function of the argument arrays and the argument arrays are unchanged. -/
theorem run_G : θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v6 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Val

end
-- ==== Proof.RefSpec.lean ====
/-
  The reference program computes the specified function.

  Read one operation at a time at an index (t, o), the reference's result is
    ( Σ_i xq[t,i] · W[o,i]  +  Σ_r (Σ_i x[t,i] · ld[r,i]) · lu[o,r] )  +  b[o],
  where xq[t,i] = min(7, max(−8, roundHalfEven(x[t,i] / step_t))) · step_t with step_t = max(max_j |x[t,j]|, 1e-6) / 7,
  and W[o,i] = q[o,i] · ws[o, i / 64]: the weights are multiplied by their scales as a [4096, 64, 64] array, in which
  flat column i of row o sits at (o, i / 64, i % 64), and the scale of that entry is ws[o, i / 64].
  The row maximum is a fold of max over the row from −∞ of the entries' magnitudes max(a, −a).
  These are, term for term and in the same order of operands, the pieces of the specification.
-/
import proofs.«149985_j87849261072827_1_alg».proof.Proof.Gen.ReferenceIdeal.Read
import proofs.«149985_j87849261072827_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## The row maximum and the step -/

/-- Dropping the column axis of a [4096, 4096] array leaves a [4096] array. -/
theorem reduces_row : S4096x4096.Reduces [1] S4096 := by decide

/-- Row t of the [4096] array of row results, with column k put back, is the entry (t, k). -/
theorem lift_row (h : S4096x4096.Reduces [1] S4096) (t : Fin 4096) (k : Fin (S4096x4096.size 1)) :
    h.lift (ix1 t) k = ix2 t (⟨k.val, k.isLt⟩ : Fin 4096) := by
  funext c; apply Fin.ext
  fin_cases c <;> rfl

/-- The reduce with a maximum body over the columns, from −∞, of the magnitudes: row t's largest magnitude. -/
theorem amax_eq (x0 : (⟨S4096x4096, .f32⟩ : BufTy).Contents (Elt Ideal)) (t : Fin 4096) :
    val_main_v7 (F := Ideal) x0 (ix1 t) = Cert.Spec.amax (Cert.Spec.rowOf x0 t) := by
  unfold val_main_v7
  have e := Host.reduce_eq_fold_single (FloatOps.maximumf (F := Ideal) (φ := .f32)) (val_main_v6 (F := Ideal) x0)
    (val_main_cst (F := Ideal)) reducesTo_S4096x4096_S4096_d1 reduces_row h_S_ (ix1 t)
  refine e.trans ?_
  have hf : (val_main_v6 (F := Ideal) x0 ∘ reduces_row.lift (ix1 t))
      = fun k : Fin 4096 => max (Cert.Spec.rowOf x0 t k) (-(Cert.Spec.rowOf x0 t k)) := by
    funext k
    show val_main_v6 (F := Ideal) x0 (reduces_row.lift (ix1 t) k) = _
    rw [lift_row reduces_row t k]
    rfl
  unfold Cert.Spec.amax
  exact congrArg (fun f => Finset.fold max (Ideal.ofBits .f32 0xFF800000#32) f (Finset.univ : Finset (Fin 4096))) hf

/-- Row t's step: max(row maximum, 1e-6) / 7. -/
theorem step_eq (x0 : (⟨S4096x4096, .f32⟩ : BufTy).Contents (Elt Ideal)) (t : Fin 4096) :
    val_main_v12 (F := Ideal) x0 (ix2 t (0 : Fin 1)) = Cert.Spec.step (Cert.Spec.rowOf x0 t) := by
  have e8 : idx_main_v8 (ix2 t (0 : Fin 1)) = ix1 t := funext fun a => by match a with | ⟨0, _⟩ => rfl
  rw [val_main_v12_apply, val_main_v10_apply, val_main_v8_apply, val_main_v9_apply, val_main_v11_apply,
    val_main_cst_0_apply, val_main_cst_1_apply, e8, amax_eq]
  rfl

/-! ## The quantized row -/

/-- The reference's fake-quantized activation at (t, k). -/
theorem xq_eq (x0 : (⟨S4096x4096, .f32⟩ : BufTy).Contents (Elt Ideal)) (t k : Fin 4096) :
    val_main_v18 (F := Ideal) x0 (ix2 t k) = Cert.Spec.qrow (Cert.Spec.rowOf x0 t) k := by
  have e13 : idx_main_v13 (ix2 t k) = ix2 t (0 : Fin 1) :=
    funext fun a => by match a with | ⟨0, _⟩ => rfl | ⟨1, _⟩ => rfl
  have e17 : idx_main_v17 (ix2 t k) = ix2 t (0 : Fin 1) :=
    funext fun a => by match a with | ⟨0, _⟩ => rfl | ⟨1, _⟩ => rfl
  rw [val_main_v18_apply, val_main_v16_apply, val_main_call1_v4_apply, val_main_call1_v3_apply, val_main_cst_3_apply,
    val_main_call1_v2_apply, val_main_call1_v1_apply, val_main_call1_v0_apply, val_main_cst_2_apply,
    val_main_v15_apply, val_main_v14_apply, val_main_v13_apply, val_main_v17_apply, e13, e17, step_eq]
  rfl

/-! ## The dequantized weights -/

/-- The reference's dequantized weight at (o, i): the code times the scale of group i / 64. -/
theorem w_eq (x1 : (⟨S4096x4096, .i32⟩ : BufTy).Contents (Elt Ideal)) (x2 : (⟨S4096x64, .f32⟩ : BufTy).Contents (Elt Ideal))
    (o i : Fin 4096) :
    val_main_v5 (F := Ideal) x1 x2 (ix2 o i) = Cert.Spec.deq (x1 (ix2 o i)) (x2 (ix2 o (Cert.Spec.grp i))) := by
  have ho : o.val < 4096 := o.isLt
  have hi : i.val < 4096 := i.isLt
  have e1 : idx_main_v1 (idx_main_v5 (ix2 o i)) = ix2 o i := funext fun a => Fin.ext (by
    match a with
    | ⟨0, _⟩ =>
      show (((o.val * 4096 + i.val) / 4096 * 64 + (o.val * 4096 + i.val) / 64 % 64) * 64 + (o.val * 4096 + i.val) % 64) / 4096 = o.val
      omega
    | ⟨1, _⟩ =>
      show (((o.val * 4096 + i.val) / 4096 * 64 + (o.val * 4096 + i.val) / 64 % 64) * 64 + (o.val * 4096 + i.val) % 64) % 4096 = i.val
      omega)
  have e2 : idx_main_v2 (idx_main_v3 (idx_main_v5 (ix2 o i))) = ix2 o (Cert.Spec.grp i) := funext fun a => Fin.ext (by
    match a with
    | ⟨0, _⟩ => show (o.val * 4096 + i.val) / 4096 = o.val; omega
    | ⟨1, _⟩ => show (o.val * 4096 + i.val) / 64 % 64 = i.val / 64; omega)
  rw [val_main_v5_apply, val_main_v4_apply, val_main_v1_apply, val_main_v0_apply, val_main_v3_apply, val_main_v2_apply,
    e1, e2]
  rfl

/-! ## The two products and the result -/

/-- The down-projection at (t, r). -/
theorem down_eq (x0 : (⟨S4096x4096, .f32⟩ : BufTy).Contents (Elt Ideal)) (x3 : (⟨S32x4096, .f32⟩ : BufTy).Contents (Elt Ideal))
    (t : Fin 4096) (r : Fin 32) :
    val_main_v20 (F := Ideal) x0 x3 (ix2 t r) = Cert.Spec.downAt x0 x3 t r := by
  rw [val_main_v20_apply]
  unfold Cert.Spec.downAt
  refine Finset.sum_congr rfl fun k _ => ?_
  have el : lidx_main_v20 (ix2 t r) k = ix2 t k := funext fun a => by match a with | ⟨0, _⟩ => rfl | ⟨1, _⟩ => rfl
  have er : ridx_main_v20 (ix2 t r) k = ix2 r k := funext fun a => by match a with | ⟨0, _⟩ => rfl | ⟨1, _⟩ => rfl
  rw [el, er]

/-- The reference's result, index by index, is the specified function of the six argument arrays. -/
theorem ref_eq_G (x0 : (⟨S4096x4096, .f32⟩ : BufTy).Contents (Elt Ideal)) (x1 : (⟨S4096x4096, .i32⟩ : BufTy).Contents (Elt Ideal))
    (x2 : (⟨S4096x64, .f32⟩ : BufTy).Contents (Elt Ideal)) (x3 : (⟨S32x4096, .f32⟩ : BufTy).Contents (Elt Ideal))
    (x4 : (⟨S4096x32, .f32⟩ : BufTy).Contents (Elt Ideal)) (x5 : (⟨S4096, .f32⟩ : BufTy).Contents (Elt Ideal)) :
    val_main_v25 (F := Ideal) x0 x1 x2 x3 x4 x5 = Cert.Spec.G x0 x1 x2 x3 x4 x5 := by
  funext j
  obtain ⟨t, o, rfl⟩ : ∃ (t o : Fin 4096), j = ix2 t o := ⟨j 0, j 1, eq_ix2 j⟩
  have e23 : idx_main_v23 (idx_main_v24 (ix2 t o)) = ix1 o := funext fun a => by match a with | ⟨0, _⟩ => rfl
  rw [val_main_v25_apply, val_main_v22_apply, val_main_v19_apply, val_main_v21_apply, val_main_v24_apply,
    val_main_v23_apply, e23, Cert.Spec.G_ix2]
  unfold Cert.Spec.outAt Cert.Spec.mainAt Cert.Spec.loraAt
  have hm : (∑ k : Fin 4096, val_main_v18 (F := Ideal) x0 (lidx_main_v19 (ix2 t o) k) * val_main_v5 (F := Ideal) x1 x2 (ridx_main_v19 (ix2 t o) k))
      = ∑ i : Fin 4096, Cert.Spec.qrow (Cert.Spec.rowOf x0 t) i * Cert.Spec.deq (x1 (ix2 o i)) (x2 (ix2 o (Cert.Spec.grp i))) := by
    refine Finset.sum_congr rfl fun k _ => ?_
    have el : lidx_main_v19 (ix2 t o) k = ix2 t k := funext fun a => by match a with | ⟨0, _⟩ => rfl | ⟨1, _⟩ => rfl
    have er : ridx_main_v19 (ix2 t o) k = ix2 o k := funext fun a => by match a with | ⟨0, _⟩ => rfl | ⟨1, _⟩ => rfl
    rw [el, er, xq_eq, w_eq]
  have hl : (∑ k : Fin 32, val_main_v20 (F := Ideal) x0 x3 (lidx_main_v21 (ix2 t o) k) * x4 (ridx_main_v21 (ix2 t o) k))
      = ∑ r : Fin 32, Cert.Spec.downAt x0 x3 t r * x4 (ix2 o r) := by
    refine Finset.sum_congr rfl fun k _ => ?_
    have el : lidx_main_v21 (ix2 t o) k = ix2 t k := funext fun a => by match a with | ⟨0, _⟩ => rfl | ⟨1, _⟩ => rfl
    have er : ridx_main_v21 (ix2 t o) k = ix2 o k := funext fun a => by match a with | ⟨0, _⟩ => rfl | ⟨1, _⟩ => rfl
    rw [el, er, down_eq]
  rw [hm, hl]
  rfl

/-! ## The reference's run -/

/-- Every weakly fair execution of the reference from memory m (counters zero) terminates; its result array is the
    specified function of the six argument arrays as m holds them, and the argument arrays are unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((val_main_v25_eq _ _ _ _ _ _).trans (ref_eq_G _ _ _ _ _ _)), (h c).2⟩)
    (Cert.ReferenceIdeal.Value.run (F := Ideal) m ρ)

/-- The same run, with the argument arrays named: if m holds the arrays a0 … a5 then the result array is the specified
    function of a0 … a5. -/
theorem run_G_of (m : (ℓ : Loc nD τ sig) → Buf (Elt Ideal) ℓ) (ρ : Dev nD → PrngReg)
    (a0 : Dev nD → (⟨2, ![4096, 4096]⟩ : Shape).Idx → EReal) (a1 : Dev nD → (⟨2, ![4096, 4096]⟩ : Shape).Idx → BitVec 32)
    (a2 : Dev nD → (⟨2, ![4096, 64]⟩ : Shape).Idx → EReal) (a3 : Dev nD → (⟨2, ![32, 4096]⟩ : Shape).Idx → EReal)
    (a4 : Dev nD → (⟨2, ![4096, 32]⟩ : Shape).Idx → EReal) (a5 : Dev nD → (⟨1, ![4096]⟩ : Shape).Idx → EReal)
    (hm : ∀ c : Dev nD, m ((c.tc : Thread nD τ).loc main_arg0) = a0 c ∧ m ((c.tc : Thread nD τ).loc main_arg1) = a1 c ∧ m ((c.tc : Thread nD τ).loc main_arg2) = a2 c
      ∧ m ((c.tc : Thread nD τ).loc main_arg3) = a3 c ∧ m ((c.tc : Thread nD τ).loc main_arg4) = a4 c ∧ m ((c.tc : Thread nD τ).loc main_arg5) = a5 c) :
    θ_run (defs (F := Ideal)) (onTc (τ := τ) (main (F := Ideal))) ⟨m, fun _ => 0, ρ⟩ fun r => ∀ c : Dev nD,
      r.2.mem ((c.tc : Thread nD τ).loc main_v25) = Cert.Spec.G (a0 c) (a1 c) (a2 c) (a3 c) (a4 c) (a5 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨by
      rw [(h c).1, (hm c).1, (hm c).2.1, (hm c).2.2.1, (hm c).2.2.2.1, (hm c).2.2.2.2.1, (hm c).2.2.2.2.2], (h c).2⟩)
    (run_G m ρ)

end Cert.ReferenceIdeal.RefValue

end
-- ==== Proof.RefFrame.lean ====
/-
  The reference's two contributions to the claims: it runs to the end leaving its arguments unchanged, and, from a
  memory that agrees with the kernel's on the six argument arrays, its result array is the specified function of the
  kernel's argument arrays.
-/
import proofs.«149985_j87849261072827_1_alg».proof.Defs
import proofs.«149985_j87849261072827_1_alg».proof.Proof.Gen.KernelIdeal
import proofs.«149985_j87849261072827_1_alg».proof.Proof.Gen.Pre_finite_inputs
import proofs.«149985_j87849261072827_1_alg».proof.Proof.RefSpec

noncomputable section

namespace Cert.ReferenceIdeal.RefValue

open Idealize.ShloMosaic Idealize.ShloMosaic.TcCoe Idealize.SL.Sem

/-- The reference runs to the end, faults nowhere, and leaves its six argument arrays as they were. -/
theorem frame_ri : Cert.frame_ReferenceIdeal := fun m ρ _ =>
  (θ_run Cert.ReferenceIdeal.defs _ _).mono (fun _ h c => (h c).2) (Cert.ReferenceIdeal.Value.run (F := Ideal) m ρ)

/-- From a memory m' that agrees with the kernel's memory m on the six argument arrays, the reference ends with the
    specified function of m's argument arrays in its result array, and with its own arguments unchanged. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v25) = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  run_G_of m' g' (fun c => m ((c.tc : Thread Cert.KernelIdeal.nD Cert.KernelIdeal.τ).loc Cert.KernelIdeal.main_arg0)) (fun c => m ((c.tc : Thread Cert.KernelIdeal.nD Cert.KernelIdeal.τ).loc Cert.KernelIdeal.main_arg1)) (fun c => m ((c.tc : Thread Cert.KernelIdeal.nD Cert.KernelIdeal.τ).loc Cert.KernelIdeal.main_arg2))
    (fun c => m ((c.tc : Thread Cert.KernelIdeal.nD Cert.KernelIdeal.τ).loc Cert.KernelIdeal.main_arg3)) (fun c => m ((c.tc : Thread Cert.KernelIdeal.nD Cert.KernelIdeal.τ).loc Cert.KernelIdeal.main_arg4)) (fun c => m ((c.tc : Thread Cert.KernelIdeal.nD Cert.KernelIdeal.τ).loc Cert.KernelIdeal.main_arg5)) hagree

end Cert.ReferenceIdeal.RefValue

end
-- ==== Proof.lean ====
/- The certificate of the quantized linear layer: a Pallas program (per-row 4-bit fake quantization of the activations,
   then a tiled matrix product with the dequantized 4-bit weights accumulated over eight contraction blocks, a rank-32
   correction and a bias) against its jnp reference, over the extended reals.

   Frames. The kernel program is two kernel launches around five host operations. Each launch is run region by region:
   the quantization body stores one whole block per grid point; the matrix-product body has three control cases along
   the contraction coordinate k (reset and first product at k = 0, one more product for 0 < k < 7, last product and the
   output tile at k = 7) and carries its accumulator from point to point in the region invariant. Every weakly fair
   execution terminates, nothing faults, and the argument arrays end as launched — at the word-level instance and at the
   ideal one alike. The reference is a straight line of host operations.

   Values at the ideal instance. Both programs compute, at token t and channel o,
     ( Σ_i q(x)[t,i] · (code[o,i] · scale[o, i/64]) + Σ_r ( Σ_i x[t,i] · down[r,i] ) · up[o,r] ) + bias[o],
   q(x) the row of x snapped to sixteen levels of its own step. The kernel's eight partial sums over blocks of 512 add up
   to the reference's one sum over 4096 because addition of extended reals is commutative and associative; no
   finiteness of the inputs is used. The idealization rewrote nothing, so the preservation conjunct is trivial. -/
import proofs.«149985_j87849261072827_1_alg».proof.Defs
import proofs.«149985_j87849261072827_1_alg».proof.Proof.BFrRun
import proofs.«149985_j87849261072827_1_alg».proof.Proof.FrRun
import proofs.«149985_j87849261072827_1_alg».proof.Proof.KValRun
import proofs.«149985_j87849261072827_1_alg».proof.Proof.RefFrame

noncomputable section

namespace Cert.Proof

open Idealize.ShloMosaic Idealize.SL.Sem

/-- The word-level kernel program runs to the end, faults nowhere, and leaves its arguments unchanged. -/
theorem frame_k : Cert.frame_Kernel (hKernel := Cert.Kernel.Gen.facts) (hPre_finite_inputs := Cert.Pre_finite_inputs.Gen.facts) :=
  fun m ρ _ => Cert.Kernel.Fr.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- From memories agreeing on the six arguments, the idealized kernel and the idealized reference both end with the
    specified function of those arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m g m' g' _ hagree =>
    ⟨_, Cert.KernelIdeal.Val.run_G m g, Cert.ReferenceIdeal.RefValue.ref_half m m' g' hagree⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
